-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512x128x256 : Shape := ⟨3, ![512, 128, 256]⟩
abbrev S32768x256 : Shape := ⟨2, ![32768, 256]⟩
abbrev S256 : Shape := ⟨1, ![256]⟩
abbrev S256x256 : Shape := ⟨2, ![256, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S512x128x256 : S_.BroadcastsInDim S512x128x256 (![] : Fin 0 → Fin S512x128x256.rank)
  reducesTo_S512x128x256_S_d0_1_2 : S512x128x256.ReducesTo [0, 1, 2] S_
  bcast_S_S32768x256 : S_.BroadcastsInDim S32768x256 (![] : Fin 0 → Fin S32768x256.rank)
  reducesTo_S32768x256_S_d0_1 : S32768x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S32768x256 .f32) (main_arg5 : FVec F S256 .f32) (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S32768x256 .f32 := Host.absf main_arg4
  let main_cst_6 : FVec F S_ .f32 := constant S_ .f32 0x7F800000#32
  let main_v20 : FVec F S32768x256 .f32 := broadcastInDim S32768x256 ![] bcast_S_S32768x256 main_cst_6
  let main_v21 : IVec S32768x256 1 := cmpf .olt main_v19 main_v20
  let main_c_7 : IVec S_ 1 := constantI S_ 1 1#1
  let main_v22 : IVec S_ 1 := (fun x v => Host.reduce IntOp.andi x v reducesTo_S32768x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S512x256 .f32) (main_arg1 : FVec F S512x128x256 .f32) (main_arg2 : FVec F S32768x256 .f32) (main_arg3 : FVec F S256 .f32) (main_arg4 : FVec F S32768x256 .f32) (main_arg5 : FVec F S256 .f32) (main_arg6 : FVec F S256x256 .f32) (main_arg7 : FVec F S256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x128x256 .f32 := Host.absf main_arg1
  let main_cst_0 : FVec F S_ .f32 := constant S_ .f32 0x7F800000#32
  let main_v5 : FVec F S512x128x256 .f32 := broadcastInDim S512x128x256 ![] bcast_S_S512x128x256 main_cst_0
  let main_v6 : IVec S512x128x256 1 := cmpf .olt main_v4 main_v5
  let main_c_1 : IVec S_ 1 := constantI S_ 1 1#1
  let main_v7 : IVec S_ 1 := (fun x v => Host.reduce IntOp.andi x v reducesTo_S512x128x256_S_d0_1_2 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S512x256 : Shape := ⟨2, ![512, 256]⟩
abbrev S512x128x256 : Shape := ⟨3, ![512, 128, 256]⟩
abbrev S32768x256 : Shape := ⟨2, ![32768, 256]⟩
abbrev S256 : Shape := ⟨1, ![256]⟩
abbrev S256x256 : Shape := ⟨2, ![256, 256]⟩
abbrev S512x32768 : Shape := ⟨2, ![512, 32768]⟩
abbrev S1x256 : Shape := ⟨2, ![1, 256]⟩
abbrev S256x2048 : Shape := ⟨2, ![256, 2048]⟩
abbrev S2048x256 : Shape := ⟨2, ![2048, 256]⟩
abbrev S256x1792 : Shape := ⟨2, ![256, 1792]⟩
abbrev S1792x256 : Shape := ⟨2, ![1792, 256]⟩

abbrev nBuf : Space → Nat
  | .hbm => 13
  | .vmem => 17
  | .smem => 0
  | _ => 0

abbrev bufTy : (tb : Table) → Fin (tcTables nBuf tb) → BufTy
  | .hbm, ⟨0, _⟩ => ⟨S512x256, .f32⟩
  | .hbm, ⟨1, _⟩ => ⟨S512x128x256, .f32⟩
  | .hbm, ⟨2, _⟩ => ⟨S32768x256, .f32⟩
  | .hbm, ⟨3, _⟩ => ⟨S256, .f32⟩
  | .hbm, ⟨4, _⟩ => ⟨S32768x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S512x32768, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S512x256, .f32⟩
  | .local _ .vmem, ⟨0, _⟩ => ⟨S256x2048, .f32⟩
  | .local _ .vmem, ⟨1, _⟩ => ⟨S256x2048, .f32⟩
  | .local _ .vmem, ⟨2, _⟩ => ⟨S256x256, .f32⟩
  | .local _ .vmem, ⟨3, _⟩ => ⟨S256x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_24 : BitVec 32 := 0#32
  let v44 : BitVec 1 := Scalar.cmpi .ne v43 c0_i32_24
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S512x128x256_S512x32768 : S512x128x256.ShapeCasts S512x32768
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  slices_S256x2048_o0_0_S256x1792 : S256x2048.Slices ![0, 0] S256x1792
  slices_S256x2048_o0_1792_S256x256 : S256x2048.Slices ![0, 1792] S256x256
  inb_S2048x256_S2048x256_0_0 : ∀ a, (![0, 0] : Fin 2 → Nat) a + S2048x256.size a ≤ S2048x256.size a
  h_S2048x256 : 0 < S2048x256.numel
  slices_S2048x256_o0_0_S256x256 : S2048x256.Slices ![0, 0] S256x256
  slices_S2048x256_o256_0_S1792x256 : S2048x256.Slices ![256, 0] S1792x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x1792_S1792x256_S256x256_1_0_0_1_n_n_wf : DotDims.WF S256x1792 S1792x256 S256x256 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S512x32768.size a
  hwx0_0 : ∀ i : grid0.Coords, EltTy.bits .f32 = 32 ∨ (Rect.block (s := S512x32768) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S512x256.size a
  hwx0_1 : ∀ i : grid0.Coords, EltTy.bits .f32 = 32 ∨ (Rect.block (s := S512x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S32768x256.size a
  hwx0_2 : ∀ i : grid0.Coords, EltTy.bits .f32 = 32 ∨ (Rect.block (s := S32768x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S32768x256.size a
  hwx0_3 : ∀ i : grid0.Coords, EltTy.bits .f32 = 32 ∨ (Rect.block (s := S32768x256) S2048x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S512x256.size a
  hwx0_8 : ∀ i : grid0.Coords, EltTy.bits .f32 = 32 ∨ (Rect.block (s := S512x256) S256x256.size (cc0_transform_8 i) (hinb0_8 i)).WholeWords (EltTy.packing .f32)

variable [Facts₀]

def dot_S256x1792_S1792x256_S256x256_1_0_0_1_n_n : DotDims S256x1792 S1792x256 S256x256 where
  lhsContracting := [1]
  rhsContracting := [0]
  lhsNonContracting := [0]
  rhsNonContracting := [1]
  lhsBatch := []
  rhsBatch := []
  wf := dot_S256x1792_S1792x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S512x256 : Shape := ⟨2, ![512, 256]⟩
abbrev S512x128x256 : Shape := ⟨3, ![512, 128, 256]⟩
abbrev S32768x256 : Shape := ⟨2, ![32768, 256]⟩
abbrev S256 : Shape := ⟨1, ![256]⟩
abbrev S256x256 : Shape := ⟨2, ![256, 256]⟩
abbrev S512x1x256 : Shape := ⟨3, ![512, 1, 256]⟩
abbrev S512x127x256 : Shape := ⟨3, ![512, 127, 256]⟩
abbrev S_ : Shape := ⟨0, ![]⟩
abbrev S1 : Shape := ⟨1, ![1]⟩
abbrev S512x32768 : Shape := ⟨2, ![512, 32768]⟩
abbrev S1x256 : Shape := ⟨2, ![1, 256]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x128x256, .f32⟩
  | .hbm, ⟨2, _⟩ => ⟨S32768x256, .f32⟩
  | .hbm, ⟨3, _⟩ => ⟨S256, .f32⟩
  | .hbm, ⟨4, _⟩ => ⟨S32768x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S512x1x256, .f32⟩
  | .hbm, ⟨9, _⟩ => ⟨S512x127x256, .f32⟩
  | .hbm, ⟨10, _⟩ => ⟨S512x128x256, .f32⟩
  | .hbm, ⟨11, _⟩ => ⟨S_, .i32⟩
  | .hbm, ⟨12, _⟩ => ⟨S1, .i32⟩
  | .hbm, ⟨13, _⟩ => ⟨S512x128x256, .f32⟩
  | .hbm, ⟨14, _⟩ => ⟨S512x32768, .f32⟩
  | .hbm, ⟨15, _⟩ => ⟨S512x256, .f32⟩
  | .hbm, ⟨16, _⟩ => ⟨S1x256, .f32⟩
  | .hbm, ⟨17, _⟩ => ⟨S512x256, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S1x256, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S1x256, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  slices_S512x128x256_S512x1x256_0_127_0 : S512x128x256.Slices ![0, 127, 0] S512x1x256
  slices_S512x128x256_S512x127x256_0_0_0 : S512x128x256.Slices ![0, 0, 0] S512x127x256
  concatenates_S512x1x256_S512x127x256_S512x128x256_d1 : Shape.Concatenates [S512x1x256, S512x127x256] S512x128x256 1
  bcast_S_S1 : S_.BroadcastsInDim S1 (![] : Fin 0 → Fin S1.rank)
  shapeCasts_S512x128x256_S512x32768 : S512x128x256.ShapeCasts S512x32768
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  scatter_S512x128x256_S1_S512x256_01_1_1_0_wf : ScatterDims.WF S512x128x256 S1 S512x256 [0, 1] [1] [1] 0
  dot_S512x32768_S32768x256_S512x256_1_0_0_1_n_n_wf : DotDims.WF S512x32768 S32768x256 S512x256 [1] [0] [0] [1] [] []
  dot_S512x256_S256x256_S512x256_1_0_0_1_n_n_wf : DotDims.WF S512x256 S256x256 S512x256 [1] [0] [0] [1] [] []

variable [Facts₀]

def scatter_S512x128x256_S1_S512x256_01_1_1_0 : ScatterDims S512x128x256 S1 S512x256 where
  updateWindowDims := [0, 1]
  insertedWindowDims := [1]
  scatterDimsToOperandDims := [1]
  indexVectorDim := 0
  wf := scatter_S512x128x256_S1_S512x256_01_1_1_0_wf
def dot_S512x32768_S32768x256_S512x256_1_0_0_1_n_n : DotDims S512x32768 S32768x256 S512x256 where
  lhsContracting := [1]
  rhsContracting := [0]
  lhsNonContracting := [0]
  rhsNonContracting := [1]
  lhsBatch := []
  rhsBatch := []
  wf := dot_S512x32768_S32768x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

class Facts : Prop extends Facts₀ where

variable [Facts]
-- ==== Proof.KBodyDefs.lean ====
/-
  What the body of the gated-layer kernel does at one grid point, as pure functions of what it reads, and the
  facts about the grid its run is stated over.

  The grid is 2 batch tiles × 16 steps along the flattened buffer, the step the fast axis: point `t` is tile
  `t / 16`, step `t % 16`. Three scratch blocks live across the steps of a tile: the two accumulators (one per
  dense branch) and the `tail`, the last 256 columns of the buffer block the step read. A step adds to each
  accumulator the block's first 1792 columns against the weight block's rows 256.., plus a 256-column piece against
  the weight block's rows ..256 — the new row `x` at step 0, the tail the step before left otherwise. Step 0 starts
  the accumulators from zero; step 15 also produces the output block.
-/
import proofs.«118517_j40699110097066_2_alg».proof.Proof.Gen.Kernel.Frame
import proofs.«118517_j40699110097066_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is step 0 of its tile": the condition of the body's first conditional, as the body computes it. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- "This is step 15 of its tile": the condition of the body's second conditional. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-- The select the body makes between the new row and the carried tail is on the step-0 test itself. -/
theorem select_first {α : Type} (i : grid0.Coords) (h : isFirst i) (a b : α) :
    Scalar.select (Scalar.cmpi .eq (BitVec.ofNat 32 (i 1).val) 0#32) a b = a := by
  have : Scalar.cmpi .eq (BitVec.ofNat 32 (i 1).val) 0#32 = 1#1 := by
    have hb : ∀ v : BitVec 1, (Scalar.cmpi .ne (Scalar.extui v) 0#32) = 1#1 → v = 1#1 := by decide
    exact hb _ h
  rw [this]; rfl

/-! ## Where the windows are idle -/

theorem live_in : ∀ (w : Fin 9), w.val < 8 → ∀ t : Fin cfg0.N, cfg0.idle w (grid0.coords t) = false := by decide +kernel
theorem idle_out : ∀ t : Fin cfg0.N, ¬isLast (grid0.coords t) → cfg0.idle 8 (grid0.coords t) = true := by decide +kernel
theorem noFlush_out : ∀ t : Fin cfg0.N, ¬isLast (grid0.coords t) → (cfg0.win 8).flush t = false := by decide +kernel
theorem live_out : ∀ t : Fin cfg0.N, isLast (grid0.coords t) → cfg0.idle 8 (grid0.coords t) = false := by decide +kernel

/-! ## The scratch blocks -/

/-- The accumulator of the tanh branch, of the gate branch, and the carried tail. -/
abbrev scAcc1 : Memref sig .tc .vmem S256x256 .f32 := Memref.whole cc0_scratch0
abbrev scAccG : Memref sig .tc .vmem S256x256 .f32 := Memref.whole cc0_scratch1
abbrev scTail : Memref sig .tc .vmem S256x256 .f32 := Memref.whole cc0_scratch2

/-- What the launch hands the region beside the windows: the three scratch blocks at some contents and the
    generator register. -/
theorem PhiA_eq (c : Dev nD) :
    (Pipeline.ΦA spec0 c : sProp 𝕄)
      = iprop(iprop((∃ d, owns (c : Thread nD τ) scAcc1 fullShare d) ∗ (∃ d, owns (c : Thread nD τ) scAccG fullShare d)
          ∗ (∃ d, owns (c : Thread nD τ) scTail fullShare d)) ∗ (∃ r, prngReg c r)) := by
  unfold Pipeline.ΦA; rw [scopedRest0_eq]; simp only [scAcc1, scAccG, scTail, owns_whole]; try rfl

/-! ## One step, as functions of what it reads -/

/-- The tanh-branch accumulator after a step that found it at `a`. -/
def acc1Next (i : grid0.Coords) (memB : Vec F S256x2048 .f32) (xB tailB : Vec F S256x256 .f32) (w1B : Vec F S2048x256 .f32)
    (a : Vec F S256x256 .f32) : Vec F S256x256 .f32 := k0_pay11 i memB xB tailB w1B a
/-- The gate-branch accumulator after a step that found it at `a`. -/
def accGNext (i : grid0.Coords) (memB : Vec F S256x2048 .f32) (xB tailB : Vec F S256x256 .f32) (wgB : Vec F S2048x256 .f32)
    (a : Vec F S256x256 .f32) : Vec F S256x256 .f32 :=
  k0_pay1 (k0_pay7 memB) (k0_pay8 i xB tailB) (k0_pay9 wgB) (k0_pay10 wgB) a
/-- The tail a step leaves: the last 256 columns of the buffer block it read. -/
def tailNext (memB : Vec F S256x2048 .f32) : Vec F S256x256 .f32 := k0_pay6 memB
/-- The output block the last step of a tile stores, from the two finished accumulators. -/
def outOf (a1 : Vec F S256x256 .f32) (b1B : Vec F S1x256 .f32) (ag : Vec F S256x256 .f32) (bgB : Vec F S1x256 .f32)
    (w2B : Vec F S256x256 .f32) (b2B : Vec F S1x256 .f32) : Vec F S256x256 .f32 := k0_pay2 a1 b1B ag bgB w2B b2B
/-- The zero block step 0 starts each accumulator from. -/
def zeroAcc1 : Vec F S256x256 .f32 := k0_pay3
def zeroAccG : Vec F S256x256 .f32 := k0_pay4

/-- At step 0 the carried tail is not used: the step's accumulators do not depend on it. -/
theorem acc1Next_first (i : grid0.Coords) (h : isFirst i) (memB : Vec F S256x2048 .f32) (xB tailB tailB' : Vec F S256x256 .f32)
    (w1B : Vec F S2048x256 .f32) (a : Vec F S256x256 .f32) :
    acc1Next i memB xB tailB w1B a = acc1Next i memB xB tailB' w1B a := by
  unfold acc1Next k0_pay11 k0_pay8
  simp only [select_first i h]
theorem accGNext_first (i : grid0.Coords) (h : isFirst i) (memB : Vec F S256x2048 .f32) (xB tailB tailB' : Vec F S256x256 .f32)
    (wgB : Vec F S2048x256 .f32) (a : Vec F S256x256 .f32) :
    accGNext i memB xB tailB wgB a = accGNext i memB xB tailB' wgB a := by
  unfold accGNext k0_pay8
  simp only [select_first i h]

end Cert.Kernel.Body

end
-- ==== Proof.KBodyRunFirst.lean ====
/-
  The body of the gated-layer kernel run at one grid point — the first step of a batch tile.
  Step 0 of a tile: the accumulators restart from zero, whatever the scratch held; the output block is not touched.
  On whole staging blocks holding the windows' contents and scratch blocks holding `s0`, `s1`, `s2`, the body runs
  to its end, faults nowhere, leaves the inputs as they were, and leaves in each block it stores into the value of the
  step functions of `BodyDefs` — each block's last store covers it, so that store's payload is what the block holds.
-/
import proofs.«118517_j40699110097066_2_alg».proof.Proof.KBodyDefs
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzFirst : (![0, 0] : Fin 2 → Nat) = fun _ => 0 := funext fun a => by fin_cases a <;> rfl
local notation "hz" => hzFirst

set_option maxHeartbeats 4000000 in
/-- Step 0 of a tile: the accumulators restart from zero, whatever the scratch held; the output block is not touched. -/
theorem runFirst (c : Dev nD) (i : grid0.Coords) (arg2 : Memref sig .tc .vmem S256x2048 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
    (hc0 : isFirst i) (hc1 : ¬isLast i) (x0 : Vec F S256x2048 .f32) (x1 : Vec F S256x256 .f32) (x2 x3 : Vec F S2048x256 .f32) (x4 x5 : Vec F S1x256 .f32) (x6 : Vec F S256x256 .f32) (x7 : Vec F S1x256 .f32) (s0 s1 s2 : Vec F S256x256 .f32)
    (xi8 : Vec F S256x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
        ∗ owns (c : Thread nD τ) arg11 fullShare s0 ∗ owns (c : Thread nD τ) arg12 fullShare s1 ∗ owns (c : Thread nD τ) arg13 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
            ∗ owns (c : Thread nD τ) arg11 fullShare (acc1Next i x0 x1 s2 x2 zeroAcc1)
            ∗ owns (c : Thread nD τ) arg12 fullShare (accGNext i x0 x1 s2 x3 zeroAccG)
            ∗ owns (c : Thread nD τ) arg13 fullShare (tailNext x0)) -∗ K ⟨⟩))
      ⊢ wp frame (wpE (defs₀ (F := F)) Variants.none c none) E (cc0__gated_mlp_kernel i arg2 harg2 arg3 harg3 arg4 harg4 arg5 harg5 arg6 harg6 arg7 harg7 arg8 harg8 arg9 harg9 arg10 harg10 arg11 harg11 arg12 harg12 arg13 harg13) K := by
  simp only [cc0__gated_mlp_kernel_eq_skeleton]; unfold cc0__gated_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8
  obtain rfl := harg11.eq_unread hg0; obtain rfl := harg12.eq_unread hg1; obtain rfl := harg13.eq_unread hg2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro; exact harg10.read_unread _
  isplitl [HS0]
  · iexists _; isplitr; swap; · iexact HS0
    ipureintro
    rw [View.read_writes_eq_canon _ _ _ (View.cover_of_tiledL _ S256x256.size (by sl_kernel_rfl))]
    try sl_unfold_words
    rw [View.canon_cons_unit_zero hz]
    unfold acc1Next zeroAcc1
    try dsimp only
    try sl_unfold_words
    simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]
  isplitl [HS1]
  · iexists _; isplitr; swap; · iexact HS1
    ipureintro
    rw [View.read_writes_eq_canon _ _ _ (View.cover_of_tiledL _ S256x256.size (by sl_kernel_rfl))]
    try sl_unfold_words
    rw [View.canon_cons_unit_zero hz]
    unfold accGNext zeroAccG
    try dsimp only
    try sl_unfold_words
    simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]
  iexists _; isplitr; swap; · iexact HS2
  ipureintro
  rw [View.read_writes_eq_canon _ _ _ (View.cover_of_tiledL _ S256x256.size (by sl_kernel_rfl))]
  try sl_unfold_words
  rw [View.canon_cons_unit_zero hz]
  unfold tailNext
  try dsimp only
  try sl_unfold_words
  simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]

end Cert.Kernel.Body

end
-- ==== Proof.KBodyRunMid.lean ====
/-
  The body of the gated-layer kernel run at one grid point — a middle step of a batch tile.
  A middle step: each accumulator takes one more term, the tail is replaced; the output block is not touched.
  On whole staging blocks holding the windows' contents and scratch blocks holding `s0`, `s1`, `s2`, the body runs
  to its end, faults nowhere, leaves the inputs as they were, and leaves in each block it stores into the value of the
  step functions of `BodyDefs` — each block's last store covers it, so that store's payload is what the block holds.
-/
import proofs.«118517_j40699110097066_2_alg».proof.Proof.KBodyDefs
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzMid : (![0, 0] : Fin 2 → Nat) = fun _ => 0 := funext fun a => by fin_cases a <;> rfl
local notation "hz" => hzMid

set_option maxHeartbeats 4000000 in
/-- A middle step: each accumulator takes one more term, the tail is replaced; the output block is not touched. -/
theorem runMid (c : Dev nD) (i : grid0.Coords) (arg2 : Memref sig .tc .vmem S256x2048 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
    (hc0 : ¬isFirst i) (hc1 : ¬isLast i) (x0 : Vec F S256x2048 .f32) (x1 : Vec F S256x256 .f32) (x2 x3 : Vec F S2048x256 .f32) (x4 x5 : Vec F S1x256 .f32) (x6 : Vec F S256x256 .f32) (x7 : Vec F S1x256 .f32) (s0 s1 s2 : Vec F S256x256 .f32)
    (xi8 : Vec F S256x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
        ∗ owns (c : Thread nD τ) arg11 fullShare s0 ∗ owns (c : Thread nD τ) arg12 fullShare s1 ∗ owns (c : Thread nD τ) arg13 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
            ∗ owns (c : Thread nD τ) arg11 fullShare (acc1Next i x0 x1 s2 x2 s0)
            ∗ owns (c : Thread nD τ) arg12 fullShare (accGNext i x0 x1 s2 x3 s1)
            ∗ owns (c : Thread nD τ) arg13 fullShare (tailNext x0)) -∗ K ⟨⟩))
      ⊢ wp frame (wpE (defs₀ (F := F)) Variants.none c none) E (cc0__gated_mlp_kernel i arg2 harg2 arg3 harg3 arg4 harg4 arg5 harg5 arg6 harg6 arg7 harg7 arg8 harg8 arg9 harg9 arg10 harg10 arg11 harg11 arg12 harg12 arg13 harg13) K := by
  simp only [cc0__gated_mlp_kernel_eq_skeleton]; unfold cc0__gated_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8
  obtain rfl := harg11.eq_unread hg0; obtain rfl := harg12.eq_unread hg1; obtain rfl := harg13.eq_unread hg2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro; exact harg10.read_unread _
  isplitl [HS0]
  · iexists _; isplitr; swap; · iexact HS0
    ipureintro
    rw [View.read_writes_eq_canon _ _ _ (View.cover_of_tiledL _ S256x256.size (by sl_kernel_rfl))]
    try sl_unfold_words
    rw [View.canon_cons_unit_zero hz]
    unfold acc1Next
    try dsimp only
    try sl_unfold_words
    simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]
  isplitl [HS1]
  · iexists _; isplitr; swap; · iexact HS1
    ipureintro
    rw [View.read_writes_eq_canon _ _ _ (View.cover_of_tiledL _ S256x256.size (by sl_kernel_rfl))]
    try sl_unfold_words
    rw [View.canon_cons_unit_zero hz]
    unfold accGNext
    try dsimp only
    try sl_unfold_words
    simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]
  iexists _; isplitr; swap; · iexact HS2
  ipureintro
  rw [View.read_writes_eq_canon _ _ _ (View.cover_of_tiledL _ S256x256.size (by sl_kernel_rfl))]
  try sl_unfold_words
  rw [View.canon_cons_unit_zero hz]
  unfold tailNext
  try dsimp only
  try sl_unfold_words
  simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]

end Cert.Kernel.Body

end
-- ==== Proof.KBodyRunLast.lean ====
/-
  The body of the gated-layer kernel run at one grid point — the last step of a batch tile.
  Step 15 of a tile: the accumulators take their last term and the output block is stored from them.
  On whole staging blocks holding the windows' contents and scratch blocks holding `s0`, `s1`, `s2`, the body runs
  to its end, faults nowhere, leaves the inputs as they were, and leaves in each block it stores into the value of the
  step functions of `BodyDefs` — each block's last store covers it, so that store's payload is what the block holds.
-/
import proofs.«118517_j40699110097066_2_alg».proof.Proof.KBodyDefs
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzLast : (![0, 0] : Fin 2 → Nat) = fun _ => 0 := funext fun a => by fin_cases a <;> rfl
local notation "hz" => hzLast

set_option maxHeartbeats 4000000 in
/-- Step 15 of a tile: the accumulators take their last term and the output block is stored from them. -/
theorem runLast (c : Dev nD) (i : grid0.Coords) (arg2 : Memref sig .tc .vmem S256x2048 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
    (hc0 : ¬isFirst i) (hc1 : isLast i) (x0 : Vec F S256x2048 .f32) (x1 : Vec F S256x256 .f32) (x2 x3 : Vec F S2048x256 .f32) (x4 x5 : Vec F S1x256 .f32) (x6 : Vec F S256x256 .f32) (x7 : Vec F S1x256 .f32) (s0 s1 s2 : Vec F S256x256 .f32)
    (xi8 : Vec F S256x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
        ∗ owns (c : Thread nD τ) arg11 fullShare s0 ∗ owns (c : Thread nD τ) arg12 fullShare s1 ∗ owns (c : Thread nD τ) arg13 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outOf (acc1Next i x0 x1 s2 x2 s0) x4 (accGNext i x0 x1 s2 x3 s1) x5 x6 x7)
            ∗ owns (c : Thread nD τ) arg11 fullShare (acc1Next i x0 x1 s2 x2 s0)
            ∗ owns (c : Thread nD τ) arg12 fullShare (accGNext i x0 x1 s2 x3 s1)
            ∗ owns (c : Thread nD τ) arg13 fullShare (tailNext x0)) -∗ K ⟨⟩))
      ⊢ wp frame (wpE (defs₀ (F := F)) Variants.none c none) E (cc0__gated_mlp_kernel i arg2 harg2 arg3 harg3 arg4 harg4 arg5 harg5 arg6 harg6 arg7 harg7 arg8 harg8 arg9 harg9 arg10 harg10 arg11 harg11 arg12 harg12 arg13 harg13) K := by
  simp only [cc0__gated_mlp_kernel_eq_skeleton]; unfold cc0__gated_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8
  obtain rfl := harg11.eq_unread hg0; obtain rfl := harg12.eq_unread hg1; obtain rfl := harg13.eq_unread hg2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    rw [View.read_writes_eq_canon _ _ _ (View.cover_of_tiledL _ S256x256.size (by sl_kernel_rfl))]
    try sl_unfold_words
    rw [View.canon_cons_unit_zero hz]
    unfold outOf acc1Next accGNext
    try dsimp only
    try sl_unfold_words
    simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]
  isplitl [HS0]
  · iexists _; isplitr; swap; · iexact HS0
    ipureintro
    rw [View.read_writes_eq_canon _ _ _ (View.cover_of_tiledL _ S256x256.size (by sl_kernel_rfl))]
    try sl_unfold_words
    rw [View.canon_cons_unit_zero hz]
    unfold acc1Next
    try dsimp only
    try sl_unfold_words
    simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]
  isplitl [HS1]
  · iexists _; isplitr; swap; · iexact HS1
    ipureintro
    rw [View.read_writes_eq_canon _ _ _ (View.cover_of_tiledL _ S256x256.size (by sl_kernel_rfl))]
    try sl_unfold_words
    rw [View.canon_cons_unit_zero hz]
    unfold accGNext
    try dsimp only
    try sl_unfold_words
    simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]
  iexists _; isplitr; swap; · iexact HS2
  ipureintro
  rw [View.read_writes_eq_canon _ _ _ (View.cover_of_tiledL _ S256x256.size (by sl_kernel_rfl))]
  try sl_unfold_words
  rw [View.canon_cons_unit_zero hz]
  unfold tailNext
  try dsimp only
  try sl_unfold_words
  simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]

end Cert.Kernel.Body

end
-- ==== Proof.KBodySteps.lean ====
/-
  What the three scratch blocks of the gated-layer kernel hold after each grid point, as a recursion over the points,
  and the output block a tile's last step stores — pure functions of the windows' blocks, no run involved.

  At step 0 of a tile the accumulators restart (`firstStep`: one term onto zero, the 256-column piece being the new row
  `x`); at every other step each takes one more term over what the point before left (`nextStep`: the piece is the tail
  the point before left).
-/
import proofs.«118517_j40699110097066_2_alg».proof.Proof.KBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the scratch blocks hold after each point -/

/-- The scratch triple (tanh accumulator, gate accumulator, tail) a tile's step 0 leaves. -/
def firstStep (c : Dev nD) (t : Fin cfg0.N) : Vec F S256x256 .f32 × Vec F S256x256 .f32 × Vec F S256x256 .f32 :=
  (acc1Next (grid0.coords t) (iblk m c 0 t) (iblk m c 1 t) (iblk m c 1 t) (iblk m c 2 t) zeroAcc1,
   accGNext (grid0.coords t) (iblk m c 0 t) (iblk m c 1 t) (iblk m c 1 t) (iblk m c 3 t) zeroAccG,
   tailNext (iblk m c 0 t))

/-- The scratch triple a later step leaves, from the triple `s` the point before left. -/
def nextStep (c : Dev nD) (t : Fin cfg0.N) (s : Vec F S256x256 .f32 × Vec F S256x256 .f32 × Vec F S256x256 .f32) :
    Vec F S256x256 .f32 × Vec F S256x256 .f32 × Vec F S256x256 .f32 :=
  (acc1Next (grid0.coords t) (iblk m c 0 t) (iblk m c 1 t) s.2.2 (iblk m c 2 t) s.1,
   accGNext (grid0.coords t) (iblk m c 0 t) (iblk m c 1 t) s.2.2 (iblk m c 3 t) s.2.1,
   tailNext (iblk m c 0 t))

/-- The scratch triple after the body at position `n`. -/
def scratchAt (c : Dev nD) : (n : ℕ) → n < cfg0.N → Vec F S256x256 .f32 × Vec F S256x256 .f32 × Vec F S256x256 .f32
  | 0, hn => firstStep m c ⟨0, hn⟩
  | n + 1, hn =>
    if (n + 1) % 16 = 0 then firstStep m c ⟨n + 1, hn⟩
    else nextStep m c ⟨n + 1, hn⟩ (scratchAt c n (Nat.lt_of_succ_lt hn))

/-- What the point before `t` left (read only where `t` is not position 0). -/
def prevScratch (c : Dev nD) (t : Fin cfg0.N) : Vec F S256x256 .f32 × Vec F S256x256 .f32 × Vec F S256x256 .f32 :=
  scratchAt m c (t.val - 1) (Nat.lt_of_le_of_lt (Nat.sub_le _ _) t.isLt)

theorem scratchAt_first (c : Dev nD) (t : Fin cfg0.N) (h : t.val % 16 = 0) : scratchAt m c t.val t.isLt = firstStep m c t := by
  obtain ⟨n, hn⟩ := t
  cases n with
  | zero => rfl
  | succ n => exact if_pos h

theorem scratchAt_next (c : Dev nD) (t : Fin cfg0.N) (h : ¬t.val % 16 = 0) :
    scratchAt m c t.val t.isLt = nextStep m c t (prevScratch m c t) := by
  obtain ⟨n, hn⟩ := t
  cases n with
  | zero => exact absurd (Nat.zero_mod _) h
  | succ n => exact if_neg h

/-- The output block stored at a tile's last step. -/
def outAt (c : Dev nD) (t : Fin cfg0.N) : Vec F S256x256 .f32 :=
  outOf (scratchAt m c t.val t.isLt).1 (iblk m c 4 t) (scratchAt m c t.val t.isLt).2.1 (iblk m c 5 t) (iblk m c 6 t) (iblk m c 7 t)

end Cert.Kernel.Body

end
-- ==== Proof.KBodyFrame.lean ====
/-
  The frame of the gated-layer kernel: every weakly fair execution of the program terminates, faults nowhere and
  leaves the argument arrays unchanged — with what the scratch blocks hold after every grid point stated, so that the
  value of the result can be read off the same run.

  After the body at point `n` the three scratch blocks hold `scratchAt n`: at step 0 of a tile the accumulators
  restart (`firstStep`: one term onto zero, the 256-column piece being the new row `x`), at every other step each takes
  one more term over what the point before left (`nextStep`: the piece is the tail the point before left). The output
  block is stored at step 15 of a tile only, from the two finished accumulators (`outAt`); elsewhere the window is idle
  and not written back.
-/
import proofs.«118517_j40699110097066_2_alg».proof.Proof.KBodyRunFirst
import proofs.«118517_j40699110097066_2_alg».proof.Proof.KBodyRunMid
import proofs.«118517_j40699110097066_2_alg».proof.Proof.KBodyRunLast
import proofs.«118517_j40699110097066_2_alg».proof.Proof.KBodySteps

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging blocks the body is called with -/

abbrev ms0 (t : Fin cfg0.N) : Memref sig .tc .vmem S256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x256 .f32 := win0_8.stage (cfg0.slots t 8)
abbrev hs8 (t : Fin cfg0.N) : (ms8 t).IsWhole := hstage0_8 ((cfg0.slots t 8).cast nbuf0_8)

/-! ## The region's invariant -/

/-- Before position `n`: at the region's entry the scratch blocks hold anything; afterwards what the point before left. -/
def PhiS (c : Dev nD) : (n : ℕ) → n ≤ cfg0.N → sProp 𝕄
  | 0, _ => Pipeline.ΦA spec0 c
  | n + 1, hn => iprop(iprop(owns (c : Thread nD τ) scAcc1 fullShare (scratchAt m c n hn).1
      ∗ owns (c : Thread nD τ) scAccG fullShare (scratchAt m c n hn).2.1
      ∗ owns (c : Thread nD τ) scTail fullShare (scratchAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scAcc1 fullShare (scratchAt m c n hn).1
      ∗ owns (c : Thread nD τ) scAccG fullShare (scratchAt m c n hn).2.1
      ∗ owns (c : Thread nD τ) scTail fullShare (scratchAt m c n hn).2.2) ∗ (∃ r, prngReg c r)) := rfl

theorem PhiS_pos (c : Dev nD) (n : ℕ) (h : n ≤ cfg0.N) (hz : n ≠ 0) :
    PhiS m c n h = iprop(iprop(owns (c : Thread nD τ) scAcc1 fullShare (scratchAt m c (n - 1) (by omega)).1
      ∗ owns (c : Thread nD τ) scAccG fullShare (scratchAt m c (n - 1) (by omega)).2.1
      ∗ owns (c : Thread nD τ) scTail fullShare (scratchAt m c (n - 1) (by omega)).2.2) ∗ (∃ r, prngReg c r)) := by
  cases n with
  | zero => exact absurd rfl hz
  | succ n => rfl

/-! ## The proof data -/

/-- The arrays as the region finds them; after the body each input's block in place and the output block at `outAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
/-- The body at any point: the inputs' staging blocks hold their blocks; the point is a tile's step 0, a middle step
    or its step 15, and that case's run applies to whatever the scratch blocks hold — anything at the region's entry,
    what the point before left afterwards; at step 0 the result does not depend on it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live_in 0 (by decide) t], after_0]
  rw [show (dats m 0 c).leavesExact 1 t = owns (c : Thread nD τ) (ms1 t) fullShare ((dats m 0 c).after 1 t) from by
    unfold Dat.leavesExact; rw [live_in 1 (by decide) t], after_1]
  rw [show (dats m 0 c).leavesExact 2 t = owns (c : Thread nD τ) (ms2 t) fullShare ((dats m 0 c).after 2 t) from by
    unfold Dat.leavesExact; rw [live_in 2 (by decide) t], after_2]
  rw [show (dats m 0 c).leavesExact 3 t = owns (c : Thread nD τ) (ms3 t) fullShare ((dats m 0 c).after 3 t) from by
    unfold Dat.leavesExact; rw [live_in 3 (by decide) t], after_3]
  rw [show (dats m 0 c).leavesExact 4 t = owns (c : Thread nD τ) (ms4 t) fullShare ((dats m 0 c).after 4 t) from by
    unfold Dat.leavesExact; rw [live_in 4 (by decide) t], after_4]
  rw [show (dats m 0 c).leavesExact 5 t = owns (c : Thread nD τ) (ms5 t) fullShare ((dats m 0 c).after 5 t) from by
    unfold Dat.leavesExact; rw [live_in 5 (by decide) t], after_5]
  rw [show (dats m 0 c).leavesExact 6 t = owns (c : Thread nD τ) (ms6 t) fullShare ((dats m 0 c).after 6 t) from by
    unfold Dat.leavesExact; rw [live_in 6 (by decide) t], after_6]
  rw [show (dats m 0 c).leavesExact 7 t = owns (c : Thread nD τ) (ms7 t) fullShare ((dats m 0 c).after 7 t) from by
    unfold Dat.leavesExact; rw [live_in 7 (by decide) t], after_7]
  have hN : t.val < 32 := lt_of_lt_of_eq t.isLt (show cfg0.N = 32 from N_0)
  by_cases h0 : t.val % 16 = 0
  · have hL : ¬t.val % 16 = 15 := by omega
    rw [Dat.leavesExact_idle (dats m 0 c) 8 t (idle_out t (fun h => hL ((isLast_iff t).mp h))) (noFlush_out t (fun h => hL ((isLast_iff t).mp h)))]
    rw [scratchAt_first m c t h0]
    unfold firstStep; dsimp only
    by_cases hz : t.val = 0
    · rw [PhiS_castSucc m c t, PhiS_zero m c _ _ hz, PhiA_eq]
      iintro ⟨⟨⟨⟨%d0, HS0⟩, ⟨%d1, HS1⟩, ⟨%d2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      rw [acc1Next_first (grid0.coords t) ((isFirst_iff t).mpr h0) (iblk m c 0 t) (iblk m c 1 t) (iblk m c 1 t) d2,
        accGNext_first (grid0.coords t) ((isFirst_iff t).mpr h0) (iblk m c 0 t) (iblk m c 1 t) (iblk m c 1 t) d2]
      iapply (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc1 (Memref.isWhole_whole _) scAccG (Memref.isWhole_whole _) scTail (Memref.isWhole_whole _) ((isFirst_iff t).mpr h0) (fun h => hL ((isLast_iff t).mp h)) (iblk m c 0 t) (iblk m c 1 t) (iblk m c 2 t) (iblk m c 3 t) (iblk m c 4 t) (iblk m c 5 t) (iblk m c 6 t) (iblk m c 7 t) d0 d1 d2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ hz]
      iintro ⟨⟨⟨HS0, HS1, HS2⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      rw [acc1Next_first (grid0.coords t) ((isFirst_iff t).mpr h0) (iblk m c 0 t) (iblk m c 1 t) (iblk m c 1 t) (prevScratch m c t).2.2,
        accGNext_first (grid0.coords t) ((isFirst_iff t).mpr h0) (iblk m c 0 t) (iblk m c 1 t) (iblk m c 1 t) (prevScratch m c t).2.2]
      iapply (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc1 (Memref.isWhole_whole _) scAccG (Memref.isWhole_whole _) scTail (Memref.isWhole_whole _) ((isFirst_iff t).mpr h0) (fun h => hL ((isLast_iff t).mp h)) (iblk m c 0 t) (iblk m c 1 t) (iblk m c 2 t) (iblk m c 3 t) (iblk m c 4 t) (iblk m c 5 t) (iblk m c 6 t) (iblk m c 7 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun h => h0 (by rw [h])
    by_cases hL : t.val % 16 = 15
    · rw [show (dats m 0 c).leavesExact 8 t = owns (c : Thread nD τ) (ms8 t) fullShare ((dats m 0 c).after 8 t) from by
        unfold Dat.leavesExact; rw [live_out t ((isLast_iff t).mpr hL)], after_8]
      unfold outAt
      rw [scratchAt_next m c t h0]
      unfold nextStep; dsimp only
      rw [PhiS_castSucc m c t, PhiS_pos m c _ _ hz]
      iintro ⟨⟨⟨HS0, HS1, HS2⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      iapply (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc1 (Memref.isWhole_whole _) scAccG (Memref.isWhole_whole _) scTail (Memref.isWhole_whole _) (fun h => h0 ((isFirst_iff t).mp h)) ((isLast_iff t).mpr hL) (iblk m c 0 t) (iblk m c 1 t) (iblk m c 2 t) (iblk m c 3 t) (iblk m c 4 t) (iblk m c 5 t) (iblk m c 6 t) (iblk m c 7 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dats m 0 c) 8 t (idle_out t (fun h => hL ((isLast_iff t).mp h))) (noFlush_out t (fun h => hL ((isLast_iff t).mp h)))]
      rw [scratchAt_next m c t h0]
      unfold nextStep; dsimp only
      rw [PhiS_castSucc m c t, PhiS_pos m c _ _ hz]
      iintro ⟨⟨⟨HS0, HS1, HS2⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      iapply (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc1 (Memref.isWhole_whole _) scAccG (Memref.isWhole_whole _) scTail (Memref.isWhole_whole _) (fun h => h0 ((isFirst_iff t).mp h)) (fun h => hL ((isLast_iff t).mp h)) (iblk m c 0 t) (iblk m c 1 t) (iblk m c 2 t) (iblk m c 3 t) (iblk m c 4 t) (iblk m c 5 t) (iblk m c 6 t) (iblk m c 7 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of the program terminates, and every final state has each array of the pipeline at what
    the proof data's write-backs leave and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.BodyDefs.lean ====
/-
  What the body of the gated-layer kernel does at one grid point, as pure functions of what it reads, and the
  facts about the grid its run is stated over.

  The grid is 2 batch tiles × 16 steps along the flattened buffer, the step the fast axis: point `t` is tile
  `t / 16`, step `t % 16`. Three scratch blocks live across the steps of a tile: the two accumulators (one per
  dense branch) and the `tail`, the last 256 columns of the buffer block the step read. A step adds to each
  accumulator the block's first 1792 columns against the weight block's rows 256.., plus a 256-column piece against
  the weight block's rows ..256 — the new row `x` at step 0, the tail the step before left otherwise. Step 0 starts
  the accumulators from zero; step 15 also produces the output block.
-/
import proofs.«118517_j40699110097066_2_alg».proof.Proof.Gen.KernelIdeal.Frame
import proofs.«118517_j40699110097066_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is step 0 of its tile": the condition of the body's first conditional, as the body computes it. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- "This is step 15 of its tile": the condition of the body's second conditional. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-- The select the body makes between the new row and the carried tail is on the step-0 test itself. -/
theorem select_first {α : Type} (i : grid0.Coords) (h : isFirst i) (a b : α) :
    Scalar.select (Scalar.cmpi .eq (BitVec.ofNat 32 (i 1).val) 0#32) a b = a := by
  have : Scalar.cmpi .eq (BitVec.ofNat 32 (i 1).val) 0#32 = 1#1 := by
    have hb : ∀ v : BitVec 1, (Scalar.cmpi .ne (Scalar.extui v) 0#32) = 1#1 → v = 1#1 := by decide
    exact hb _ h
  rw [this]; rfl

/-! ## Where the windows are idle -/

theorem live_in : ∀ (w : Fin 9), w.val < 8 → ∀ t : Fin cfg0.N, cfg0.idle w (grid0.coords t) = false := by decide +kernel
theorem idle_out : ∀ t : Fin cfg0.N, ¬isLast (grid0.coords t) → cfg0.idle 8 (grid0.coords t) = true := by decide +kernel
theorem noFlush_out : ∀ t : Fin cfg0.N, ¬isLast (grid0.coords t) → (cfg0.win 8).flush t = false := by decide +kernel
theorem live_out : ∀ t : Fin cfg0.N, isLast (grid0.coords t) → cfg0.idle 8 (grid0.coords t) = false := by decide +kernel

/-! ## The scratch blocks -/

/-- The accumulator of the tanh branch, of the gate branch, and the carried tail. -/
abbrev scAcc1 : Memref sig .tc .vmem S256x256 .f32 := Memref.whole cc0_scratch0
abbrev scAccG : Memref sig .tc .vmem S256x256 .f32 := Memref.whole cc0_scratch1
abbrev scTail : Memref sig .tc .vmem S256x256 .f32 := Memref.whole cc0_scratch2

/-- What the launch hands the region beside the windows: the three scratch blocks at some contents and the
    generator register. -/
theorem PhiA_eq (c : Dev nD) :
    (Pipeline.ΦA spec0 c : sProp 𝕄)
      = iprop(iprop((∃ d, owns (c : Thread nD τ) scAcc1 fullShare d) ∗ (∃ d, owns (c : Thread nD τ) scAccG fullShare d)
          ∗ (∃ d, owns (c : Thread nD τ) scTail fullShare d)) ∗ (∃ r, prngReg c r)) := by
  unfold Pipeline.ΦA; rw [scopedRest0_eq]; simp only [scAcc1, scAccG, scTail, owns_whole]; try rfl

/-! ## One step, as functions of what it reads -/

/-- The tanh-branch accumulator after a step that found it at `a`. -/
def acc1Next (i : grid0.Coords) (memB : Vec F S256x2048 .f32) (xB tailB : Vec F S256x256 .f32) (w1B : Vec F S2048x256 .f32)
    (a : Vec F S256x256 .f32) : Vec F S256x256 .f32 := k0_pay11 i memB xB tailB w1B a
/-- The gate-branch accumulator after a step that found it at `a`. -/
def accGNext (i : grid0.Coords) (memB : Vec F S256x2048 .f32) (xB tailB : Vec F S256x256 .f32) (wgB : Vec F S2048x256 .f32)
    (a : Vec F S256x256 .f32) : Vec F S256x256 .f32 :=
  k0_pay1 (k0_pay7 memB) (k0_pay8 i xB tailB) (k0_pay9 wgB) (k0_pay10 wgB) a
/-- The tail a step leaves: the last 256 columns of the buffer block it read. -/
def tailNext (memB : Vec F S256x2048 .f32) : Vec F S256x256 .f32 := k0_pay6 memB
/-- The output block the last step of a tile stores, from the two finished accumulators. -/
def outOf (a1 : Vec F S256x256 .f32) (b1B : Vec F S1x256 .f32) (ag : Vec F S256x256 .f32) (bgB : Vec F S1x256 .f32)
    (w2B : Vec F S256x256 .f32) (b2B : Vec F S1x256 .f32) : Vec F S256x256 .f32 := k0_pay2 a1 b1B ag bgB w2B b2B
/-- The zero block step 0 starts each accumulator from. -/
def zeroAcc1 : Vec F S256x256 .f32 := k0_pay3
def zeroAccG : Vec F S256x256 .f32 := k0_pay4

/-- At step 0 the carried tail is not used: the step's accumulators do not depend on it. -/
theorem acc1Next_first (i : grid0.Coords) (h : isFirst i) (memB : Vec F S256x2048 .f32) (xB tailB tailB' : Vec F S256x256 .f32)
    (w1B : Vec F S2048x256 .f32) (a : Vec F S256x256 .f32) :
    acc1Next i memB xB tailB w1B a = acc1Next i memB xB tailB' w1B a := by
  unfold acc1Next k0_pay11 k0_pay8
  simp only [select_first i h]
theorem accGNext_first (i : grid0.Coords) (h : isFirst i) (memB : Vec F S256x2048 .f32) (xB tailB tailB' : Vec F S256x256 .f32)
    (wgB : Vec F S2048x256 .f32) (a : Vec F S256x256 .f32) :
    accGNext i memB xB tailB wgB a = accGNext i memB xB tailB' wgB a := by
  unfold accGNext k0_pay8
  simp only [select_first i h]

end Cert.KernelIdeal.Body

end
-- ==== Proof.BodyRunFirst.lean ====
/-
  The body of the gated-layer kernel run at one grid point — the first step of a batch tile.
  Step 0 of a tile: the accumulators restart from zero, whatever the scratch held; the output block is not touched.
  On whole staging blocks holding the windows' contents and scratch blocks holding `s0`, `s1`, `s2`, the body runs
  to its end, faults nowhere, leaves the inputs as they were, and leaves in each block it stores into the value of the
  step functions of `BodyDefs` — each block's last store covers it, so that store's payload is what the block holds.
-/
import proofs.«118517_j40699110097066_2_alg».proof.Proof.BodyDefs
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzFirst : (![0, 0] : Fin 2 → Nat) = fun _ => 0 := funext fun a => by fin_cases a <;> rfl
local notation "hz" => hzFirst

set_option maxHeartbeats 4000000 in
/-- Step 0 of a tile: the accumulators restart from zero, whatever the scratch held; the output block is not touched. -/
theorem runFirst (c : Dev nD) (i : grid0.Coords) (arg2 : Memref sig .tc .vmem S256x2048 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
    (hc0 : isFirst i) (hc1 : ¬isLast i) (x0 : Vec F S256x2048 .f32) (x1 : Vec F S256x256 .f32) (x2 x3 : Vec F S2048x256 .f32) (x4 x5 : Vec F S1x256 .f32) (x6 : Vec F S256x256 .f32) (x7 : Vec F S1x256 .f32) (s0 s1 s2 : Vec F S256x256 .f32)
    (xi8 : Vec F S256x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
        ∗ owns (c : Thread nD τ) arg11 fullShare s0 ∗ owns (c : Thread nD τ) arg12 fullShare s1 ∗ owns (c : Thread nD τ) arg13 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
            ∗ owns (c : Thread nD τ) arg11 fullShare (acc1Next i x0 x1 s2 x2 zeroAcc1)
            ∗ owns (c : Thread nD τ) arg12 fullShare (accGNext i x0 x1 s2 x3 zeroAccG)
            ∗ owns (c : Thread nD τ) arg13 fullShare (tailNext x0)) -∗ K ⟨⟩))
      ⊢ wp frame (wpE (defs₀ (F := F)) Variants.none c none) E (cc0__gated_mlp_kernel i arg2 harg2 arg3 harg3 arg4 harg4 arg5 harg5 arg6 harg6 arg7 harg7 arg8 harg8 arg9 harg9 arg10 harg10 arg11 harg11 arg12 harg12 arg13 harg13) K := by
  simp only [cc0__gated_mlp_kernel_eq_skeleton]; unfold cc0__gated_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8
  obtain rfl := harg11.eq_unread hg0; obtain rfl := harg12.eq_unread hg1; obtain rfl := harg13.eq_unread hg2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro; exact harg10.read_unread _
  isplitl [HS0]
  · iexists _; isplitr; swap; · iexact HS0
    ipureintro
    rw [View.read_writes_eq_canon _ _ _ (View.cover_of_tiledL _ S256x256.size (by sl_kernel_rfl))]
    try sl_unfold_words
    rw [View.canon_cons_unit_zero hz]
    unfold acc1Next zeroAcc1
    try dsimp only
    try sl_unfold_words
    simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]
  isplitl [HS1]
  · iexists _; isplitr; swap; · iexact HS1
    ipureintro
    rw [View.read_writes_eq_canon _ _ _ (View.cover_of_tiledL _ S256x256.size (by sl_kernel_rfl))]
    try sl_unfold_words
    rw [View.canon_cons_unit_zero hz]
    unfold accGNext zeroAccG
    try dsimp only
    try sl_unfold_words
    simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]
  iexists _; isplitr; swap; · iexact HS2
  ipureintro
  rw [View.read_writes_eq_canon _ _ _ (View.cover_of_tiledL _ S256x256.size (by sl_kernel_rfl))]
  try sl_unfold_words
  rw [View.canon_cons_unit_zero hz]
  unfold tailNext
  try dsimp only
  try sl_unfold_words
  simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]

end Cert.KernelIdeal.Body

end
-- ==== Proof.BodyRunMid.lean ====
/-
  The body of the gated-layer kernel run at one grid point — a middle step of a batch tile.
  A middle step: each accumulator takes one more term, the tail is replaced; the output block is not touched.
  On whole staging blocks holding the windows' contents and scratch blocks holding `s0`, `s1`, `s2`, the body runs
  to its end, faults nowhere, leaves the inputs as they were, and leaves in each block it stores into the value of the
  step functions of `BodyDefs` — each block's last store covers it, so that store's payload is what the block holds.
-/
import proofs.«118517_j40699110097066_2_alg».proof.Proof.BodyDefs
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzMid : (![0, 0] : Fin 2 → Nat) = fun _ => 0 := funext fun a => by fin_cases a <;> rfl
local notation "hz" => hzMid

set_option maxHeartbeats 4000000 in
/-- A middle step: each accumulator takes one more term, the tail is replaced; the output block is not touched. -/
theorem runMid (c : Dev nD) (i : grid0.Coords) (arg2 : Memref sig .tc .vmem S256x2048 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
    (hc0 : ¬isFirst i) (hc1 : ¬isLast i) (x0 : Vec F S256x2048 .f32) (x1 : Vec F S256x256 .f32) (x2 x3 : Vec F S2048x256 .f32) (x4 x5 : Vec F S1x256 .f32) (x6 : Vec F S256x256 .f32) (x7 : Vec F S1x256 .f32) (s0 s1 s2 : Vec F S256x256 .f32)
    (xi8 : Vec F S256x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
        ∗ owns (c : Thread nD τ) arg11 fullShare s0 ∗ owns (c : Thread nD τ) arg12 fullShare s1 ∗ owns (c : Thread nD τ) arg13 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
            ∗ owns (c : Thread nD τ) arg11 fullShare (acc1Next i x0 x1 s2 x2 s0)
            ∗ owns (c : Thread nD τ) arg12 fullShare (accGNext i x0 x1 s2 x3 s1)
            ∗ owns (c : Thread nD τ) arg13 fullShare (tailNext x0)) -∗ K ⟨⟩))
      ⊢ wp frame (wpE (defs₀ (F := F)) Variants.none c none) E (cc0__gated_mlp_kernel i arg2 harg2 arg3 harg3 arg4 harg4 arg5 harg5 arg6 harg6 arg7 harg7 arg8 harg8 arg9 harg9 arg10 harg10 arg11 harg11 arg12 harg12 arg13 harg13) K := by
  simp only [cc0__gated_mlp_kernel_eq_skeleton]; unfold cc0__gated_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8
  obtain rfl := harg11.eq_unread hg0; obtain rfl := harg12.eq_unread hg1; obtain rfl := harg13.eq_unread hg2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro; exact harg10.read_unread _
  isplitl [HS0]
  · iexists _; isplitr; swap; · iexact HS0
    ipureintro
    rw [View.read_writes_eq_canon _ _ _ (View.cover_of_tiledL _ S256x256.size (by sl_kernel_rfl))]
    try sl_unfold_words
    rw [View.canon_cons_unit_zero hz]
    unfold acc1Next
    try dsimp only
    try sl_unfold_words
    simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]
  isplitl [HS1]
  · iexists _; isplitr; swap; · iexact HS1
    ipureintro
    rw [View.read_writes_eq_canon _ _ _ (View.cover_of_tiledL _ S256x256.size (by sl_kernel_rfl))]
    try sl_unfold_words
    rw [View.canon_cons_unit_zero hz]
    unfold accGNext
    try dsimp only
    try sl_unfold_words
    simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]
  iexists _; isplitr; swap; · iexact HS2
  ipureintro
  rw [View.read_writes_eq_canon _ _ _ (View.cover_of_tiledL _ S256x256.size (by sl_kernel_rfl))]
  try sl_unfold_words
  rw [View.canon_cons_unit_zero hz]
  unfold tailNext
  try dsimp only
  try sl_unfold_words
  simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]

end Cert.KernelIdeal.Body

end
-- ==== Proof.BodyRunLast.lean ====
/-
  The body of the gated-layer kernel run at one grid point — the last step of a batch tile.
  Step 15 of a tile: the accumulators take their last term and the output block is stored from them.
  On whole staging blocks holding the windows' contents and scratch blocks holding `s0`, `s1`, `s2`, the body runs
  to its end, faults nowhere, leaves the inputs as they were, and leaves in each block it stores into the value of the
  step functions of `BodyDefs` — each block's last store covers it, so that store's payload is what the block holds.
-/
import proofs.«118517_j40699110097066_2_alg».proof.Proof.BodyDefs
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzLast : (![0, 0] : Fin 2 → Nat) = fun _ => 0 := funext fun a => by fin_cases a <;> rfl
local notation "hz" => hzLast

set_option maxHeartbeats 4000000 in
/-- Step 15 of a tile: the accumulators take their last term and the output block is stored from them. -/
theorem runLast (c : Dev nD) (i : grid0.Coords) (arg2 : Memref sig .tc .vmem S256x2048 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole)
    (hc0 : ¬isFirst i) (hc1 : isLast i) (x0 : Vec F S256x2048 .f32) (x1 : Vec F S256x256 .f32) (x2 x3 : Vec F S2048x256 .f32) (x4 x5 : Vec F S1x256 .f32) (x6 : Vec F S256x256 .f32) (x7 : Vec F S1x256 .f32) (s0 s1 s2 : Vec F S256x256 .f32)
    (xi8 : Vec F S256x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
        ∗ owns (c : Thread nD τ) arg11 fullShare s0 ∗ owns (c : Thread nD τ) arg12 fullShare s1 ∗ owns (c : Thread nD τ) arg13 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outOf (acc1Next i x0 x1 s2 x2 s0) x4 (accGNext i x0 x1 s2 x3 s1) x5 x6 x7)
            ∗ owns (c : Thread nD τ) arg11 fullShare (acc1Next i x0 x1 s2 x2 s0)
            ∗ owns (c : Thread nD τ) arg12 fullShare (accGNext i x0 x1 s2 x3 s1)
            ∗ owns (c : Thread nD τ) arg13 fullShare (tailNext x0)) -∗ K ⟨⟩))
      ⊢ wp frame (wpE (defs₀ (F := F)) Variants.none c none) E (cc0__gated_mlp_kernel i arg2 harg2 arg3 harg3 arg4 harg4 arg5 harg5 arg6 harg6 arg7 harg7 arg8 harg8 arg9 harg9 arg10 harg10 arg11 harg11 arg12 harg12 arg13 harg13) K := by
  simp only [cc0__gated_mlp_kernel_eq_skeleton]; unfold cc0__gated_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, HS0⟩, ⟨%g1, %hg1, HS1⟩, ⟨%g2, %hg2, HS2⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8
  obtain rfl := harg11.eq_unread hg0; obtain rfl := harg12.eq_unread hg1; obtain rfl := harg13.eq_unread hg2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    rw [View.read_writes_eq_canon _ _ _ (View.cover_of_tiledL _ S256x256.size (by sl_kernel_rfl))]
    try sl_unfold_words
    rw [View.canon_cons_unit_zero hz]
    unfold outOf acc1Next accGNext
    try dsimp only
    try sl_unfold_words
    simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]
  isplitl [HS0]
  · iexists _; isplitr; swap; · iexact HS0
    ipureintro
    rw [View.read_writes_eq_canon _ _ _ (View.cover_of_tiledL _ S256x256.size (by sl_kernel_rfl))]
    try sl_unfold_words
    rw [View.canon_cons_unit_zero hz]
    unfold acc1Next
    try dsimp only
    try sl_unfold_words
    simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]
  isplitl [HS1]
  · iexists _; isplitr; swap; · iexact HS1
    ipureintro
    rw [View.read_writes_eq_canon _ _ _ (View.cover_of_tiledL _ S256x256.size (by sl_kernel_rfl))]
    try sl_unfold_words
    rw [View.canon_cons_unit_zero hz]
    unfold accGNext
    try dsimp only
    try sl_unfold_words
    simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]
  iexists _; isplitr; swap; · iexact HS2
  ipureintro
  rw [View.read_writes_eq_canon _ _ _ (View.cover_of_tiledL _ S256x256.size (by sl_kernel_rfl))]
  try sl_unfold_words
  rw [View.canon_cons_unit_zero hz]
  unfold tailNext
  try dsimp only
  try sl_unfold_words
  simp only [View.readCov_unit_zero (S := S256x256) _ hz, View.readAt_eq_ld, harg2.read_unread, harg3.read_unread, harg4.read_unread, harg5.read_unread, harg6.read_unread, harg7.read_unread, harg8.read_unread, harg9.read_unread, harg11.read_unread, harg12.read_unread, harg13.read_unread, View.ld_unit_zero (S := S256x2048) hz, View.ld_unit_zero (S := S256x256) hz, View.ld_unit_zero (S := S2048x256) hz, View.ld_unit_zero (S := S1x256) hz]

end Cert.KernelIdeal.Body

end
-- ==== Proof.BodySteps.lean ====
/-
  What the three scratch blocks of the gated-layer kernel hold after each grid point, as a recursion over the points,
  and the output block a tile's last step stores — pure functions of the windows' blocks, no run involved.

  At step 0 of a tile the accumulators restart (`firstStep`: one term onto zero, the 256-column piece being the new row
  `x`); at every other step each takes one more term over what the point before left (`nextStep`: the piece is the tail
  the point before left).
-/
import proofs.«118517_j40699110097066_2_alg».proof.Proof.BodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the scratch blocks hold after each point -/

/-- The scratch triple (tanh accumulator, gate accumulator, tail) a tile's step 0 leaves. -/
def firstStep (c : Dev nD) (t : Fin cfg0.N) : Vec F S256x256 .f32 × Vec F S256x256 .f32 × Vec F S256x256 .f32 :=
  (acc1Next (grid0.coords t) (iblk m c 0 t) (iblk m c 1 t) (iblk m c 1 t) (iblk m c 2 t) zeroAcc1,
   accGNext (grid0.coords t) (iblk m c 0 t) (iblk m c 1 t) (iblk m c 1 t) (iblk m c 3 t) zeroAccG,
   tailNext (iblk m c 0 t))

/-- The scratch triple a later step leaves, from the triple `s` the point before left. -/
def nextStep (c : Dev nD) (t : Fin cfg0.N) (s : Vec F S256x256 .f32 × Vec F S256x256 .f32 × Vec F S256x256 .f32) :
    Vec F S256x256 .f32 × Vec F S256x256 .f32 × Vec F S256x256 .f32 :=
  (acc1Next (grid0.coords t) (iblk m c 0 t) (iblk m c 1 t) s.2.2 (iblk m c 2 t) s.1,
   accGNext (grid0.coords t) (iblk m c 0 t) (iblk m c 1 t) s.2.2 (iblk m c 3 t) s.2.1,
   tailNext (iblk m c 0 t))

/-- The scratch triple after the body at position `n`. -/
def scratchAt (c : Dev nD) : (n : ℕ) → n < cfg0.N → Vec F S256x256 .f32 × Vec F S256x256 .f32 × Vec F S256x256 .f32
  | 0, hn => firstStep m c ⟨0, hn⟩
  | n + 1, hn =>
    if (n + 1) % 16 = 0 then firstStep m c ⟨n + 1, hn⟩
    else nextStep m c ⟨n + 1, hn⟩ (scratchAt c n (Nat.lt_of_succ_lt hn))

/-- What the point before `t` left (read only where `t` is not position 0). -/
def prevScratch (c : Dev nD) (t : Fin cfg0.N) : Vec F S256x256 .f32 × Vec F S256x256 .f32 × Vec F S256x256 .f32 :=
  scratchAt m c (t.val - 1) (Nat.lt_of_le_of_lt (Nat.sub_le _ _) t.isLt)

theorem scratchAt_first (c : Dev nD) (t : Fin cfg0.N) (h : t.val % 16 = 0) : scratchAt m c t.val t.isLt = firstStep m c t := by
  obtain ⟨n, hn⟩ := t
  cases n with
  | zero => rfl
  | succ n => exact if_pos h

theorem scratchAt_next (c : Dev nD) (t : Fin cfg0.N) (h : ¬t.val % 16 = 0) :
    scratchAt m c t.val t.isLt = nextStep m c t (prevScratch m c t) := by
  obtain ⟨n, hn⟩ := t
  cases n with
  | zero => exact absurd (Nat.zero_mod _) h
  | succ n => exact if_neg h

/-- The output block stored at a tile's last step. -/
def outAt (c : Dev nD) (t : Fin cfg0.N) : Vec F S256x256 .f32 :=
  outOf (scratchAt m c t.val t.isLt).1 (iblk m c 4 t) (scratchAt m c t.val t.isLt).2.1 (iblk m c 5 t) (iblk m c 6 t) (iblk m c 7 t)

end Cert.KernelIdeal.Body

end
-- ==== Proof.BodyFrame.lean ====
/-
  The frame of the gated-layer kernel: every weakly fair execution of the program terminates, faults nowhere and
  leaves the argument arrays unchanged — with what the scratch blocks hold after every grid point stated, so that the
  value of the result can be read off the same run.

  After the body at point `n` the three scratch blocks hold `scratchAt n`: at step 0 of a tile the accumulators
  restart (`firstStep`: one term onto zero, the 256-column piece being the new row `x`), at every other step each takes
  one more term over what the point before left (`nextStep`: the piece is the tail the point before left). The output
  block is stored at step 15 of a tile only, from the two finished accumulators (`outAt`); elsewhere the window is idle
  and not written back.
-/
import proofs.«118517_j40699110097066_2_alg».proof.Proof.BodyRunFirst
import proofs.«118517_j40699110097066_2_alg».proof.Proof.BodyRunMid
import proofs.«118517_j40699110097066_2_alg».proof.Proof.BodyRunLast
import proofs.«118517_j40699110097066_2_alg».proof.Proof.BodySteps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging blocks the body is called with -/

abbrev ms0 (t : Fin cfg0.N) : Memref sig .tc .vmem S256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x256 .f32 := win0_8.stage (cfg0.slots t 8)
abbrev hs8 (t : Fin cfg0.N) : (ms8 t).IsWhole := hstage0_8 ((cfg0.slots t 8).cast nbuf0_8)

/-! ## The region's invariant -/

/-- Before position `n`: at the region's entry the scratch blocks hold anything; afterwards what the point before left. -/
def PhiS (c : Dev nD) : (n : ℕ) → n ≤ cfg0.N → sProp 𝕄
  | 0, _ => Pipeline.ΦA spec0 c
  | n + 1, hn => iprop(iprop(owns (c : Thread nD τ) scAcc1 fullShare (scratchAt m c n hn).1
      ∗ owns (c : Thread nD τ) scAccG fullShare (scratchAt m c n hn).2.1
      ∗ owns (c : Thread nD τ) scTail fullShare (scratchAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scAcc1 fullShare (scratchAt m c n hn).1
      ∗ owns (c : Thread nD τ) scAccG fullShare (scratchAt m c n hn).2.1
      ∗ owns (c : Thread nD τ) scTail fullShare (scratchAt m c n hn).2.2) ∗ (∃ r, prngReg c r)) := rfl

theorem PhiS_pos (c : Dev nD) (n : ℕ) (h : n ≤ cfg0.N) (hz : n ≠ 0) :
    PhiS m c n h = iprop(iprop(owns (c : Thread nD τ) scAcc1 fullShare (scratchAt m c (n - 1) (by omega)).1
      ∗ owns (c : Thread nD τ) scAccG fullShare (scratchAt m c (n - 1) (by omega)).2.1
      ∗ owns (c : Thread nD τ) scTail fullShare (scratchAt m c (n - 1) (by omega)).2.2) ∗ (∃ r, prngReg c r)) := by
  cases n with
  | zero => exact absurd rfl hz
  | succ n => rfl

/-! ## The proof data -/

/-- The arrays as the region finds them; after the body each input's block in place and the output block at `outAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 8000000 in
/-- The body at any point: the inputs' staging blocks hold their blocks; the point is a tile's step 0, a middle step
    or its step 15, and that case's run applies to whatever the scratch blocks hold — anything at the region's entry,
    what the point before left afterwards; at step 0 the result does not depend on it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live_in 0 (by decide) t], after_0]
  rw [show (dats m 0 c).leavesExact 1 t = owns (c : Thread nD τ) (ms1 t) fullShare ((dats m 0 c).after 1 t) from by
    unfold Dat.leavesExact; rw [live_in 1 (by decide) t], after_1]
  rw [show (dats m 0 c).leavesExact 2 t = owns (c : Thread nD τ) (ms2 t) fullShare ((dats m 0 c).after 2 t) from by
    unfold Dat.leavesExact; rw [live_in 2 (by decide) t], after_2]
  rw [show (dats m 0 c).leavesExact 3 t = owns (c : Thread nD τ) (ms3 t) fullShare ((dats m 0 c).after 3 t) from by
    unfold Dat.leavesExact; rw [live_in 3 (by decide) t], after_3]
  rw [show (dats m 0 c).leavesExact 4 t = owns (c : Thread nD τ) (ms4 t) fullShare ((dats m 0 c).after 4 t) from by
    unfold Dat.leavesExact; rw [live_in 4 (by decide) t], after_4]
  rw [show (dats m 0 c).leavesExact 5 t = owns (c : Thread nD τ) (ms5 t) fullShare ((dats m 0 c).after 5 t) from by
    unfold Dat.leavesExact; rw [live_in 5 (by decide) t], after_5]
  rw [show (dats m 0 c).leavesExact 6 t = owns (c : Thread nD τ) (ms6 t) fullShare ((dats m 0 c).after 6 t) from by
    unfold Dat.leavesExact; rw [live_in 6 (by decide) t], after_6]
  rw [show (dats m 0 c).leavesExact 7 t = owns (c : Thread nD τ) (ms7 t) fullShare ((dats m 0 c).after 7 t) from by
    unfold Dat.leavesExact; rw [live_in 7 (by decide) t], after_7]
  have hN : t.val < 32 := lt_of_lt_of_eq t.isLt (show cfg0.N = 32 from N_0)
  by_cases h0 : t.val % 16 = 0
  · have hL : ¬t.val % 16 = 15 := by omega
    rw [Dat.leavesExact_idle (dats m 0 c) 8 t (idle_out t (fun h => hL ((isLast_iff t).mp h))) (noFlush_out t (fun h => hL ((isLast_iff t).mp h)))]
    rw [scratchAt_first m c t h0]
    unfold firstStep; dsimp only
    by_cases hz : t.val = 0
    · rw [PhiS_castSucc m c t, PhiS_zero m c _ _ hz, PhiA_eq]
      iintro ⟨⟨⟨⟨%d0, HS0⟩, ⟨%d1, HS1⟩, ⟨%d2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      rw [acc1Next_first (grid0.coords t) ((isFirst_iff t).mpr h0) (iblk m c 0 t) (iblk m c 1 t) (iblk m c 1 t) d2,
        accGNext_first (grid0.coords t) ((isFirst_iff t).mpr h0) (iblk m c 0 t) (iblk m c 1 t) (iblk m c 1 t) d2]
      iapply (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc1 (Memref.isWhole_whole _) scAccG (Memref.isWhole_whole _) scTail (Memref.isWhole_whole _) ((isFirst_iff t).mpr h0) (fun h => hL ((isLast_iff t).mp h)) (iblk m c 0 t) (iblk m c 1 t) (iblk m c 2 t) (iblk m c 3 t) (iblk m c 4 t) (iblk m c 5 t) (iblk m c 6 t) (iblk m c 7 t) d0 d1 d2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · rw [PhiS_castSucc m c t, PhiS_pos m c _ _ hz]
      iintro ⟨⟨⟨HS0, HS1, HS2⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      rw [acc1Next_first (grid0.coords t) ((isFirst_iff t).mpr h0) (iblk m c 0 t) (iblk m c 1 t) (iblk m c 1 t) (prevScratch m c t).2.2,
        accGNext_first (grid0.coords t) ((isFirst_iff t).mpr h0) (iblk m c 0 t) (iblk m c 1 t) (iblk m c 1 t) (prevScratch m c t).2.2]
      iapply (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc1 (Memref.isWhole_whole _) scAccG (Memref.isWhole_whole _) scTail (Memref.isWhole_whole _) ((isFirst_iff t).mpr h0) (fun h => hL ((isLast_iff t).mp h)) (iblk m c 0 t) (iblk m c 1 t) (iblk m c 2 t) (iblk m c 3 t) (iblk m c 4 t) (iblk m c 5 t) (iblk m c 6 t) (iblk m c 7 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · have hz : t.val ≠ 0 := fun h => h0 (by rw [h])
    by_cases hL : t.val % 16 = 15
    · rw [show (dats m 0 c).leavesExact 8 t = owns (c : Thread nD τ) (ms8 t) fullShare ((dats m 0 c).after 8 t) from by
        unfold Dat.leavesExact; rw [live_out t ((isLast_iff t).mpr hL)], after_8]
      unfold outAt
      rw [scratchAt_next m c t h0]
      unfold nextStep; dsimp only
      rw [PhiS_castSucc m c t, PhiS_pos m c _ _ hz]
      iintro ⟨⟨⟨HS0, HS1, HS2⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      iapply (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc1 (Memref.isWhole_whole _) scAccG (Memref.isWhole_whole _) scTail (Memref.isWhole_whole _) (fun h => h0 ((isFirst_iff t).mp h)) ((isLast_iff t).mpr hL) (iblk m c 0 t) (iblk m c 1 t) (iblk m c 2 t) (iblk m c 3 t) (iblk m c 4 t) (iblk m c 5 t) (iblk m c 6 t) (iblk m c 7 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dats m 0 c) 8 t (idle_out t (fun h => hL ((isLast_iff t).mp h))) (noFlush_out t (fun h => hL ((isLast_iff t).mp h)))]
      rw [scratchAt_next m c t h0]
      unfold nextStep; dsimp only
      rw [PhiS_castSucc m c t, PhiS_pos m c _ _ hz]
      iintro ⟨⟨⟨HS0, HS1, HS2⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      iapply (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scAcc1 (Memref.isWhole_whole _) scAccG (Memref.isWhole_whole _) scTail (Memref.isWhole_whole _) (fun h => h0 ((isFirst_iff t).mp h)) (fun h => hL ((isLast_iff t).mp h)) (iblk m c 0 t) (iblk m c 1 t) (iblk m c 2 t) (iblk m c 3 t) (iblk m c 4 t) (iblk m c 5 t) (iblk m c 6 t) (iblk m c 7 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of the program terminates, and every final state has each array of the pipeline at what
    the proof data's write-backs leave and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.Spec.lean ====
/-
  The function both programs compute, index by index, on the extended reals.

  A ring buffer of 128 slots of 256 lanes per row is advanced by one slot and the new row `x` written into slot 0;
  the buffer, flattened to 32768 positions per row, goes through a gated dense layer

      h(b, ·) = tanh (flat(b, ·) · W1 + b1) * logistic (flat(b, ·) · Wg + bg),     out(b, ·) = h(b, ·) · W2 + b2.

  Position `n` of the flattened, advanced buffer of row `b` is `x b n` for `n < 256` and lane `n % 256` of the
  OLD slot `n / 256 - 1` from there on (`flat`). Sums are over `Fin` types of literal extents; nothing here
  depends on a printed program.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- Arrays of extended reals over literal shapes of rank 1, 2 and 3. -/
abbrev A1 (a : Nat) := (⟨1, ![a]⟩ : Shape).Idx → EReal
abbrev A2 (a b : Nat) := (⟨2, ![a, b]⟩ : Shape).Idx → EReal
abbrev A3 (a b c : Nat) := (⟨3, ![a, b, c]⟩ : Shape).Idx → EReal

/-- The old buffer flattened: position `n` of row `b` is lane `n % 256` of slot `n / 256`. -/
def memFlat (mem : A3 512 128 256) (b : Fin 512) (n : Fin 32768) : EReal :=
  mem (ix3 b ⟨n.val / 256, by have := n.isLt; omega⟩ ⟨n.val % 256, Nat.mod_lt _ (by norm_num)⟩)

/-- The advanced buffer flattened: the new row in the first 256 positions, the old buffer moved up by 256 after. -/
def flat (x : A2 512 256) (mem : A3 512 128 256) (b : Fin 512) (n : Fin 32768) : EReal :=
  if h : n.val < 256 then x (ix2 b ⟨n.val, h⟩)
  else memFlat mem b ⟨n.val - 256, by have := n.isLt; omega⟩

/-- One dense branch before its nonlinearity: the flattened buffer against a weight column, plus the bias. -/
def pre (x : A2 512 256) (mem : A3 512 128 256) (W : A2 32768 256) (bias : A1 256) (b : Fin 512) (h : Fin 256) : EReal :=
  (∑ n : Fin 32768, flat x mem b n * W (ix2 n h)) + bias (ix1 h)

/-- The gated hidden activation. -/
def hidden (x : A2 512 256) (mem : A3 512 128 256) (W1 : A2 32768 256) (b1 : A1 256) (Wg : A2 32768 256) (bg : A1 256)
    (b : Fin 512) (h : Fin 256) : EReal :=
  Ideal.tanh (pre x mem W1 b1 b h) * Ideal.logistic (pre x mem Wg bg b h)

/-- The result at row `b`, column `v`. -/
def outAt (x : A2 512 256) (mem : A3 512 128 256) (W1 : A2 32768 256) (b1 : A1 256) (Wg : A2 32768 256) (bg : A1 256)
    (W2 : A2 256 256) (b2 : A1 256) (b : Fin 512) (v : Fin 256) : EReal :=
  (∑ h : Fin 256, hidden x mem W1 b1 Wg bg b h * W2 (ix2 h v)) + b2 (ix1 v)

/-- The result array. -/
def G (x : A2 512 256) (mem : A3 512 128 256) (W1 : A2 32768 256) (b1 : A1 256) (Wg : A2 32768 256) (bg : A1 256)
    (W2 : A2 256 256) (b2 : A1 256) : A2 512 256 :=
  fun i => outAt x mem W1 b1 Wg bg W2 b2 ⟨(i 0).val, (i 0).isLt⟩ ⟨(i 1).val, (i 1).isLt⟩

theorem G_ix2 (x : A2 512 256) (mem : A3 512 128 256) (W1 : A2 32768 256) (b1 : A1 256) (Wg : A2 32768 256) (bg : A1 256)
    (W2 : A2 256 256) (b2 : A1 256) (b : Fin 512) (v : Fin 256) :
    G x mem W1 b1 Wg bg W2 b2 (ix2 b v) = outAt x mem W1 b1 Wg bg W2 b2 b v := rfl

end Cert.Spec

end
-- ==== Proof.LibScatterRead.lean ====
/-
  A scatter whose combining function returns the update (an overwriting scatter), read at one position of its result,
  for any operand, index and update shapes, any dimension numbers and any scatter indices.

  Such a scatter is a left fold, over the update elements in row-major order, of "write this update element at the
  position it lands on, if it lands inside the operand". Read at one position `i'` of the result:
    • if no update element lands on `i'`, the operand's element survives every step (`scatter_set_apply_miss`);
    • if some do, the last of them in the fold's order is what remains, so when all of them carry the same value `c`
      the result is `c`; in particular, when exactly one update element `j₀` lands on `i'`, the result there is that
      update element (`scatter_set_apply_hit`).
  The two `foldl` lemmas state the same for the fold over any list of update positions, by induction on the list.
-/
import Idealize.ShloMosaic.PureOps.ShapeOps

namespace Cert.LibScatterRead

open Idealize.ShloMosaic

section ScatterSet
variable {α : Type} {s si u : Shape} {w : Nat}

/-- The fold at a position none of the listed update elements lands on: every step leaves that position alone. -/
theorem scatter_set_foldl_miss (d : ScatterDims s si u) (idx : IVec si w) (upd : u.Idx → α) (i' : s.Idx)
    (L : List (Fin u.numel)) (hmiss : ∀ n ∈ L, d.resultIdx? (u.rowMajor.symm n) idx ≠ some i') (x : s.Idx → α) :
    (L.foldl (fun r n =>
        match d.resultIdx? (u.rowMajor.symm n) idx with
        | some i => fun i' => if i' = i then (fun _ b => b) (r i) (upd (u.rowMajor.symm n)) else r i'
        | none => r) x) i' = x i' := by
  induction L generalizing x with
  | nil => rfl
  | cons a L ih =>
    rw [List.foldl_cons, ih (fun n hn => hmiss n (List.mem_cons_of_mem _ hn))]
    have ha := hmiss a (List.mem_cons_self ..)
    generalize d.resultIdx? (u.rowMajor.symm a) idx = o at ha
    cases o with
    | none => rfl
    | some i =>
      show (if i' = i then _ else _) = _
      rw [if_neg (fun h => ha (by rw [h]))]

/-- The fold at a position some listed update element lands on, all such elements carrying the value `c`: by induction
    on the list, either a later element lands there too (induction hypothesis) or the head is the last one to land
    there and the rest of the fold leaves the position alone. -/
theorem scatter_set_foldl_hit (d : ScatterDims s si u) (idx : IVec si w) (upd : u.Idx → α) (i' : s.Idx) (c : α)
    (L : List (Fin u.numel)) (hex : ∃ n ∈ L, d.resultIdx? (u.rowMajor.symm n) idx = some i')
    (hval : ∀ n ∈ L, d.resultIdx? (u.rowMajor.symm n) idx = some i' → upd (u.rowMajor.symm n) = c) (x : s.Idx → α) :
    (L.foldl (fun r n =>
        match d.resultIdx? (u.rowMajor.symm n) idx with
        | some i => fun i' => if i' = i then (fun _ b => b) (r i) (upd (u.rowMajor.symm n)) else r i'
        | none => r) x) i' = c := by
  induction L generalizing x with
  | nil => obtain ⟨n, hn, _⟩ := hex; exact absurd hn (List.not_mem_nil)
  | cons a L ih =>
    rw [List.foldl_cons]
    by_cases hL : ∃ n ∈ L, d.resultIdx? (u.rowMajor.symm n) idx = some i'
    · exact ih hL (fun n hn => hval n (List.mem_cons_of_mem _ hn)) _
    · rw [scatter_set_foldl_miss d idx upd i' L (fun n hn h => hL ⟨n, hn, h⟩)]
      obtain ⟨n, hn, hg⟩ := hex
      rcases List.mem_cons.1 hn with rfl | hn'
      · have hv := hval n (List.mem_cons_self ..) hg
        rw [hg]
        show (if i' = i' then upd (u.rowMajor.symm n) else _) = c
        rw [if_pos rfl, hv]
      · exact absurd ⟨n, hn', hg⟩ hL

/-- An overwriting scatter at a position no update lands on keeps the operand's element. -/
theorem scatter_set_apply_miss (d : ScatterDims s si u) (x : s.Idx → α) (idx : IVec si w) (upd : u.Idx → α) (i' : s.Idx)
    (hmiss : ∀ j, d.resultIdx? j idx ≠ some i') :
    Host.scatter d (fun _ b => b) x idx upd i' = x i' := by
  unfold Host.scatter
  exact scatter_set_foldl_miss d idx upd i' _ (fun n _ => hmiss _) x

/-- An overwriting scatter at a position where exactly the update element `j₀` lands reads that element. -/
theorem scatter_set_apply_hit (d : ScatterDims s si u) (x : s.Idx → α) (idx : IVec si w) (upd : u.Idx → α) (i' : s.Idx)
    (j₀ : u.Idx) (h₀ : d.resultIdx? j₀ idx = some i') (huniq : ∀ j, d.resultIdx? j idx = some i' → j = j₀) :
    Host.scatter d (fun _ b => b) x idx upd i' = upd j₀ := by
  unfold Host.scatter
  refine scatter_set_foldl_hit d idx upd i' (upd j₀) _ ⟨u.rowMajor j₀, List.mem_finRange _, ?_⟩ (fun n _ hn => ?_) x
  · rw [Equiv.symm_apply_apply]; exact h₀
  · rw [huniq _ hn]

end ScatterSet

end Cert.LibScatterRead
-- ==== Proof.RefValue.lean ====
/-
  The reference program's result is the specification, index by index, on the extended reals.

  The reference advances the ring buffer literally: the last slot (127) is cut off and put in front of slots 0..126
  (a concatenation along the slot axis), the new row is written over slot 0, and the buffer is flattened row-major to
  32768 positions per row. So position `n` of row `b` of the flattened buffer is
    • the new row's lane `n` for `n < 256` (slot `n / 256 = 0` is the overwritten one), and
    • lane `n % 256` of the OLD slot `n / 256 - 1` otherwise (slot `s ≥ 1` of the rolled buffer is old slot `s - 1`);
  the old slot 127 is never read. Each dense product is then the sum over the contracted coordinate, the gate
  `1 / (1 + exp (-z))` is the logistic function by definition, and the constant `0x3F800000` is the number one.
-/
import proofs.«118517_j40699110097066_2_alg».proof.Proof.Gen.ReferenceIdeal.Read
import proofs.«118517_j40699110097066_2_alg».proof.Proof.Spec
import proofs.«118517_j40699110097066_2_alg».proof.Proof.LibScatterRead
import Idealize.ShloMosaic.Lib.IdealHost

noncomputable section

namespace Cert.ReferenceIdeal.RefValue

open Cert.ReferenceIdeal Cert.ReferenceIdeal.Gen Idealize.ShloMosaic Idealize.ShloMosaic.ValueIdx Cert.LibScatterRead

/-! ## The rolled buffer read at an index -/

/-- Slot 0 of the rolled buffer is the old slot 127: the coordinate 0 on the slot axis falls in the first piece of the
    concatenation, the one-slot slice starting at slot 127. -/
theorem v0_apply_zero (x1 : (⟨S512x128x256, .f32⟩ : BufTy).Contents (Elt Ideal)) (b : Fin 512) (l : Fin 256) :
    Read.val_main_v0 (F := Ideal) x1 (ix3 b (0 : Fin 128) l) = x1 (ix3 b (127 : Fin 128) l) := by
  unfold Read.val_main_v0
  rw [concatenate_pair_apply_left (t := S512x128x256) (s₁ := S512x1x256) (s₂ := S512x127x256) (1 : Fin 3) _ _ _ (ix3 b (0 : Fin 128) l) rfl (ix3 b (0 : Fin 1) l)
    (fun a => by match a with | ⟨0, _⟩ => rfl | ⟨1, _⟩ => rfl | ⟨2, _⟩ => rfl)]
  rw [Read.val_main_call0_v0_apply]
  congr 1
  funext a
  match a with
  | ⟨0, _⟩ => rfl
  | ⟨1, _⟩ => rfl
  | ⟨2, _⟩ => rfl

/-- Slot `s ≥ 1` of the rolled buffer is the old slot `s - 1`: the coordinate falls in the second piece of the
    concatenation, the slice of slots 0..126, at `s - 1`. -/
theorem v0_apply_succ (x1 : (⟨S512x128x256, .f32⟩ : BufTy).Contents (Elt Ideal)) (b : Fin 512) (s : Fin 128)
    (hs : 0 < s.val) (l : Fin 256) :
    Read.val_main_v0 (F := Ideal) x1 (ix3 b s l) = x1 (ix3 b (⟨s.val - 1, by have := s.isLt; omega⟩ : Fin 128) l) := by
  unfold Read.val_main_v0
  rw [concatenate_pair_apply_right (t := S512x128x256) (s₁ := S512x1x256) (s₂ := S512x127x256) (1 : Fin 3) _ _ _ (ix3 b s l) rfl rfl
    (ix3 b (⟨s.val - 1, by have := s.isLt; omega⟩ : Fin 127) l)
    (fun a ha => by
      match a with
      | ⟨0, _⟩ => rfl
      | ⟨1, _⟩ => exact absurd rfl ha
      | ⟨2, _⟩ => rfl)
    (by show s.val - 1 + 1 = s.val; omega)]
  rw [Read.val_main_call0_v1_apply]
  congr 1
  funext a
  match a with
  | ⟨0, _⟩ => rfl
  | ⟨1, _⟩ => rfl
  | ⟨2, _⟩ => rfl

/-! ## The reference's scatter: the new row written over slot 0

The scatter's one start index is the constant 0 on the slot axis, and the slot axis is the inserted window axis, so
update element `(b, l)` lands on `(b, 0, l)`: start 0 on every axis, window coordinate `b` on axis 0, 0 on axis 1,
`l` on axis 2. That map is injective and its image is exactly slot 0. -/

/-- The scatter's dimension numbers. -/
abbrev scD := scatter_S512x128x256_S1_S512x256_01_1_1_0

/-- Every window starts at 0: the only start index read is the constant 0, and the other axes have none. -/
theorem sc_start (j : S512x256.Idx) (a : Fin 3) :
    scD.start j (Read.val_main_v1 (F := Ideal)) a = 0 := by
  unfold ScatterDims.start
  split
  · rw [Read.val_main_v1_apply, Read.val_main_c_apply]; rfl
  · rfl

/-- The window coordinate on the row axis is the update's row. -/
theorem sc_window0 (b : Fin 512) (l : Fin 256) : scD.window (ix2 b l) (0 : Fin 3) = b.val := by
  unfold ScatterDims.window
  rw [dif_pos (by decide)]
  rfl

/-- The window coordinate on the slot axis, an inserted axis, is 0. -/
theorem sc_window1 (b : Fin 512) (l : Fin 256) : scD.window (ix2 b l) (1 : Fin 3) = 0 := by
  unfold ScatterDims.window
  rw [dif_neg (by decide)]

/-- The window coordinate on the lane axis is the update's lane. -/
theorem sc_window2 (b : Fin 512) (l : Fin 256) : scD.window (ix2 b l) (2 : Fin 3) = l.val := by
  unfold ScatterDims.window
  rw [dif_pos (by decide)]
  rfl

/-- Update element `(b, l)` lands on `(b, 0, l)`, which is inside the buffer. -/
theorem sc_resultIdx (b : Fin 512) (l : Fin 256) :
    scD.resultIdx? (ix2 b l) (Read.val_main_v1 (F := Ideal)) = some (ix3 b (0 : Fin 128) l) := by
  have h : ∀ a : Fin 3, 0 ≤ scD.start (ix2 b l) (Read.val_main_v1 (F := Ideal)) a + scD.window (ix2 b l) a ∧
      scD.start (ix2 b l) (Read.val_main_v1 (F := Ideal)) a + scD.window (ix2 b l) a < S512x128x256.size a := by
    intro a
    rw [sc_start]
    match a with
    | ⟨0, _⟩ =>
      show 0 ≤ (0 : Int) + ((scD.window (ix2 b l) (0 : Fin 3) : Nat) : Int) ∧ (0 : Int) + ((scD.window (ix2 b l) (0 : Fin 3) : Nat) : Int) < ((512 : Nat) : Int)
      rw [sc_window0]; have := b.isLt; omega
    | ⟨1, _⟩ =>
      show 0 ≤ (0 : Int) + ((scD.window (ix2 b l) (1 : Fin 3) : Nat) : Int) ∧ (0 : Int) + ((scD.window (ix2 b l) (1 : Fin 3) : Nat) : Int) < ((128 : Nat) : Int)
      rw [sc_window1]; omega
    | ⟨2, _⟩ =>
      show 0 ≤ (0 : Int) + ((scD.window (ix2 b l) (2 : Fin 3) : Nat) : Int) ∧ (0 : Int) + ((scD.window (ix2 b l) (2 : Fin 3) : Nat) : Int) < ((256 : Nat) : Int)
      rw [sc_window2]; have := l.isLt; omega
  unfold ScatterDims.resultIdx?
  rw [dif_pos h]
  congr 1
  funext a
  apply Fin.ext
  show (scD.start (ix2 b l) (Read.val_main_v1 (F := Ideal)) a + scD.window (ix2 b l) a).toNat = (ix3 b (0 : Fin 128) l a).val
  rw [sc_start]
  match a with
  | ⟨0, _⟩ =>
    show ((0 : Int) + ((scD.window (ix2 b l) (0 : Fin 3) : Nat) : Int)).toNat = b.val
    rw [sc_window0]; omega
  | ⟨1, _⟩ =>
    show ((0 : Int) + ((scD.window (ix2 b l) (1 : Fin 3) : Nat) : Int)).toNat = 0
    rw [sc_window1]; omega
  | ⟨2, _⟩ =>
    show ((0 : Int) + ((scD.window (ix2 b l) (2 : Fin 3) : Nat) : Int)).toNat = l.val
    rw [sc_window2]; omega

/-- Slot 0 after the write is the new row: exactly the update element `(b, l)` lands on `(b, 0, l)`. -/
theorem v2_apply_zero (x0 : (⟨S512x256, .f32⟩ : BufTy).Contents (Elt Ideal))
    (x1 : (⟨S512x128x256, .f32⟩ : BufTy).Contents (Elt Ideal)) (b : Fin 512) (l : Fin 256) :
    Read.val_main_v2 (F := Ideal) x0 x1 (ix3 b (0 : Fin 128) l) = x0 (ix2 b l) := by
  unfold Read.val_main_v2
  exact scatter_set_apply_hit scD _ _ x0 (ix3 b (0 : Fin 128) l) (ix2 b l) (sc_resultIdx b l) (fun j hj => by
    obtain ⟨b', l', rfl⟩ : ∃ (b' : Fin 512) (l' : Fin 256), j = ix2 b' l' := ⟨j 0, j 1, eq_ix2 j⟩
    rw [sc_resultIdx] at hj
    have h := Option.some.inj hj
    have h0 : b' = b := congrFun h (0 : Fin 3)
    have h2 : l' = l := congrFun h (2 : Fin 3)
    rw [h0, h2])

/-- A slot `s ≥ 1` after the write is the rolled buffer's: every update element lands on slot 0. -/
theorem v2_apply_succ (x0 : (⟨S512x256, .f32⟩ : BufTy).Contents (Elt Ideal))
    (x1 : (⟨S512x128x256, .f32⟩ : BufTy).Contents (Elt Ideal)) (b : Fin 512) (s : Fin 128) (hs : 0 < s.val) (l : Fin 256) :
    Read.val_main_v2 (F := Ideal) x0 x1 (ix3 b s l) = Read.val_main_v0 (F := Ideal) x1 (ix3 b s l) := by
  unfold Read.val_main_v2
  exact scatter_set_apply_miss scD _ _ x0 (ix3 b s l) (fun j hj => by
    obtain ⟨b', l', rfl⟩ : ∃ (b' : Fin 512) (l' : Fin 256), j = ix2 b' l' := ⟨j 0, j 1, eq_ix2 j⟩
    rw [sc_resultIdx] at hj
    have h1 : (0 : Fin 128) = s := congrFun (Option.some.inj hj) (1 : Fin 3)
    rw [← h1] at hs
    exact absurd hs (by decide))

/-! ## The flattened, advanced buffer -/

/-- Row-major flattening of `[512, 128, 256]` to `[512, 32768]`: position `n` of row `b` is slot `n / 256`, lane
    `n % 256` of row `b` (from `(b * 32768 + n) / 32768 = b`, `(b * 32768 + n) / 256 % 128 = n / 256` and
    `(b * 32768 + n) % 256 = n % 256` for `n < 32768`). -/
theorem idx_v3_ix2 (b : Fin 512) (n : Fin 32768) :
    Read.idx_main_v3 (ix2 b n) = ix3 b (⟨n.val / 256, by have := n.isLt; omega⟩ : Fin 128)
      (⟨n.val % 256, Nat.mod_lt _ (by norm_num)⟩ : Fin 256) := by
  funext a
  match a with
  | ⟨0, _⟩ => exact Fin.ext (by show (b.val * 32768 + n.val) / 32768 = b.val; have := n.isLt; omega)
  | ⟨1, _⟩ => exact Fin.ext (by show (b.val * 32768 + n.val) / 256 % 128 = n.val / 256; have := n.isLt; omega)
  | ⟨2, _⟩ => exact Fin.ext (by show (b.val * 32768 + n.val) % 256 = n.val % 256; omega)

/-- The reference's flattened buffer is the specification's: for `n < 256` the slot is 0 and the lane `n`, the new
    row; otherwise the slot `n / 256 ≥ 1` of the rolled buffer is the old slot `n / 256 - 1 = (n - 256) / 256`, at lane
    `n % 256 = (n - 256) % 256`. -/
theorem flat_apply (x0 : (⟨S512x256, .f32⟩ : BufTy).Contents (Elt Ideal))
    (x1 : (⟨S512x128x256, .f32⟩ : BufTy).Contents (Elt Ideal)) (b : Fin 512) (n : Fin 32768) :
    Read.val_main_v3 (F := Ideal) x0 x1 (ix2 b n) = Cert.Spec.flat x0 x1 b n := by
  rw [Read.val_main_v3_apply, idx_v3_ix2]
  unfold Cert.Spec.flat
  by_cases h : n.val < 256
  · rw [dif_pos h]
    have hs : (⟨n.val / 256, by have := n.isLt; omega⟩ : Fin 128) = (0 : Fin 128) := Fin.ext (Nat.div_eq_of_lt h)
    have hl : (⟨n.val % 256, Nat.mod_lt _ (by norm_num)⟩ : Fin 256) = ⟨n.val, h⟩ := Fin.ext (Nat.mod_eq_of_lt h)
    rw [hs, hl, v2_apply_zero]
  · rw [dif_neg h]
    rw [v2_apply_succ x0 x1 b _ (by show 0 < n.val / 256; omega), v0_apply_succ x1 b _ (by show 0 < n.val / 256; omega)]
    unfold Cert.Spec.memFlat
    congr 1
    funext a
    match a with
    | ⟨0, _⟩ => rfl
    | ⟨1, _⟩ => exact Fin.ext (by show n.val / 256 - 1 = (n.val - 256) / 256; omega)
    | ⟨2, _⟩ => exact Fin.ext (by show n.val % 256 = (n.val - 256) % 256; omega)

/-! ## The two dense branches, the gate, and the second layer -/

/-- The first dense branch before its nonlinearity: the sum over the 32768 flattened positions plus the bias, the bias
    broadcast along the rows. -/
theorem v7_apply (x0 : (⟨S512x256, .f32⟩ : BufTy).Contents (Elt Ideal))
    (x1 : (⟨S512x128x256, .f32⟩ : BufTy).Contents (Elt Ideal))
    (x2 : (⟨S32768x256, .f32⟩ : BufTy).Contents (Elt Ideal)) (x3 : (⟨S256, .f32⟩ : BufTy).Contents (Elt Ideal))
    (b : Fin 512) (h : Fin 256) :
    Read.val_main_v7 (F := Ideal) x0 x1 x2 x3 (ix2 b h) = Cert.Spec.pre x0 x1 x2 x3 b h := by
  rw [Read.val_main_v7_apply, Read.val_main_v4_apply, Read.val_main_v6_apply, Read.val_main_v5_apply]
  unfold Cert.Spec.pre
  have hb : Read.idx_main_v5 (Read.idx_main_v6 (ix2 b h)) = ix1 h := funext fun a => by
    match a with
    | ⟨0, _⟩ => rfl
  rw [Ideal.addf_def, hb]
  refine congrArg (· + x3 (ix1 h)) (Finset.sum_congr rfl fun k _ => ?_)
  have el : Read.lidx_main_v4 (ix2 b h) k = ix2 b k := funext fun a => by
    match a with
    | ⟨0, _⟩ => rfl
    | ⟨1, _⟩ => rfl
  have er : Read.ridx_main_v4 (ix2 b h) k = ix2 k h := funext fun a => by
    match a with
    | ⟨0, _⟩ => rfl
    | ⟨1, _⟩ => rfl
  rw [el, er, flat_apply]

/-- The gate's dense branch before its nonlinearity, likewise. -/
theorem v12_apply (x0 : (⟨S512x256, .f32⟩ : BufTy).Contents (Elt Ideal))
    (x1 : (⟨S512x128x256, .f32⟩ : BufTy).Contents (Elt Ideal))
    (x4 : (⟨S32768x256, .f32⟩ : BufTy).Contents (Elt Ideal)) (x5 : (⟨S256, .f32⟩ : BufTy).Contents (Elt Ideal))
    (b : Fin 512) (h : Fin 256) :
    Read.val_main_v12 (F := Ideal) x0 x1 x4 x5 (ix2 b h) = Cert.Spec.pre x0 x1 x4 x5 b h := by
  rw [Read.val_main_v12_apply, Read.val_main_v9_apply, Read.val_main_v11_apply, Read.val_main_v10_apply]
  unfold Cert.Spec.pre
  have hb : Read.idx_main_v10 (Read.idx_main_v11 (ix2 b h)) = ix1 h := funext fun a => by
    match a with
    | ⟨0, _⟩ => rfl
  rw [Ideal.addf_def, hb]
  refine congrArg (· + x5 (ix1 h)) (Finset.sum_congr rfl fun k _ => ?_)
  have el : Read.lidx_main_v9 (ix2 b h) k = ix2 b k := funext fun a => by
    match a with
    | ⟨0, _⟩ => rfl
    | ⟨1, _⟩ => rfl
  have er : Read.ridx_main_v9 (ix2 b h) k = ix2 k h := funext fun a => by
    match a with
    | ⟨0, _⟩ => rfl
    | ⟨1, _⟩ => rfl
  rw [el, er, flat_apply]

/-- The gated hidden activation: `tanh` of the first branch times `1 / (1 + exp (-z))` of the gate's, which is the
    logistic function by definition; the broadcast constant is the number one. -/
theorem v19_apply (x0 : (⟨S512x256, .f32⟩ : BufTy).Contents (Elt Ideal))
    (x1 : (⟨S512x128x256, .f32⟩ : BufTy).Contents (Elt Ideal))
    (x2 : (⟨S32768x256, .f32⟩ : BufTy).Contents (Elt Ideal)) (x3 : (⟨S256, .f32⟩ : BufTy).Contents (Elt Ideal))
    (x4 : (⟨S32768x256, .f32⟩ : BufTy).Contents (Elt Ideal)) (x5 : (⟨S256, .f32⟩ : BufTy).Contents (Elt Ideal))
    (b : Fin 512) (h : Fin 256) :
    Read.val_main_v19 (F := Ideal) x0 x1 x2 x3 x4 x5 (ix2 b h) = Cert.Spec.hidden x0 x1 x2 x3 x4 x5 b h := by
  rw [Read.val_main_v19_apply, Read.val_main_v8_apply, Read.val_main_v18_apply, Read.val_main_v17_apply,
    Read.val_main_cst_0_apply, Read.val_main_v16_apply, Read.val_main_v15_apply, Read.val_main_cst_apply,
    Read.val_main_v14_apply, Read.val_main_v13_apply, v7_apply, v12_apply]
  unfold Cert.Spec.hidden Ideal.logistic
  rw [Ideal.mulf_def, Ideal.hostUnary_tanh_def, Ideal.hostDivf_def, Ideal.addf_def, Ideal.hostUnary_exp_def,
    Ideal.hostNegf_def, Ideal.negf_def, Ideal.ofBits_def, Ideal.ofBits_one_f32]

/-- The second layer: the sum over the 256 hidden units plus the bias. -/
theorem v23_apply (x0 : (⟨S512x256, .f32⟩ : BufTy).Contents (Elt Ideal))
    (x1 : (⟨S512x128x256, .f32⟩ : BufTy).Contents (Elt Ideal))
    (x2 : (⟨S32768x256, .f32⟩ : BufTy).Contents (Elt Ideal)) (x3 : (⟨S256, .f32⟩ : BufTy).Contents (Elt Ideal))
    (x4 : (⟨S32768x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (b : Fin 512) (v : Fin 256) :
    Read.val_main_v23 (F := Ideal) x0 x1 x2 x3 x4 x5 x6 x7 (ix2 b v) = Cert.Spec.outAt x0 x1 x2 x3 x4 x5 x6 x7 b v := by
  rw [Read.val_main_v23_apply, Read.val_main_v20_apply, Read.val_main_v22_apply, Read.val_main_v21_apply]
  unfold Cert.Spec.outAt
  have hb : Read.idx_main_v21 (Read.idx_main_v22 (ix2 b v)) = ix1 v := funext fun a => by
    match a with
    | ⟨0, _⟩ => rfl
  rw [Ideal.addf_def, hb]
  refine congrArg (· + x7 (ix1 v)) (Finset.sum_congr rfl fun k _ => ?_)
  have el : Read.lidx_main_v20 (ix2 b v) k = ix2 b k := funext fun a => by
    match a with
    | ⟨0, _⟩ => rfl
    | ⟨1, _⟩ => rfl
  have er : Read.ridx_main_v20 (ix2 b v) k = ix2 k v := funext fun a => by
    match a with
    | ⟨0, _⟩ => rfl
    | ⟨1, _⟩ => rfl
  rw [el, er, v19_apply]

/-- The reference program's result is the specification. -/
theorem ref_eq_G (x0 : (⟨S512x256, .f32⟩ : BufTy).Contents (Elt Ideal)) (x1 : (⟨S512x128x256, .f32⟩ : BufTy).Contents (Elt Ideal))
    (x2 : (⟨S32768x256, .f32⟩ : BufTy).Contents (Elt Ideal)) (x3 : (⟨S256, .f32⟩ : BufTy).Contents (Elt Ideal))
    (x4 : (⟨S32768x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) :
    Cert.ReferenceIdeal.Read.val_main_v23 (F := Ideal) x0 x1 x2 x3 x4 x5 x6 x7 = Cert.Spec.G x0 x1 x2 x3 x4 x5 x6 x7 := by
  funext i
  obtain ⟨b, v, rfl⟩ : ∃ (b : Fin 512) (v : Fin 256), i = ix2 b v := ⟨i 0, i 1, eq_ix2 i⟩
  rw [Cert.Spec.G_ix2, v23_apply]

end Cert.ReferenceIdeal.RefValue

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.Payload.lean ====
/-
  The step's arithmetic read at one index, on the extended reals.

  A step of the gated layer reads a block of the flattened buffer (256 rows, 2048 columns), a 256-column piece
  (the new row at step 0, the previous block's last 256 columns otherwise) and a block of 2048 weight rows. Each
  accumulator gains, at row p and column q,

      Σ_{j < 1792} block (p, j) · weight (256 + j, q)  +  Σ_{j < 256} piece (p, j) · weight (j, q):

  the block's first 1792 columns meet the weight rows 256 onward, the piece meets the first 256 weight rows. The
  narrowing of the operands to a shorter format is the identity on extended reals, both products start from the zero
  block, and a cast to the same shape changes nothing. The tail a step leaves is the block's last 256 columns; the
  output block is the hidden activation tanh (a₁ + b₁) · logistic (a_g + b_g) against the second layer's weights,
  plus its bias row.
-/
import proofs.«118517_j40699110097066_2_alg».proof.Proof.BodyDefs
import proofs.«118517_j40699110097066_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.KernelIdeal.Body Idealize.ShloMosaic Idealize.ShloMosaic.ValueIdx

/-! ## The two products' dimension numbers: which operand coordinate each output coordinate names -/

theorem big_l0 (j : S256x256.Idx) (c : dot_S256x1792_S1792x256_S256x256_1_0_0_1_n_n.contr.Idx) :
    (dot_S256x1792_S1792x256_S256x256_1_0_0_1_n_n.lhsIdx j c 0).val = (j 0).val := by
  unfold DotDims.lhsIdx
  rw [dif_neg (show ¬(0 : Fin S256x1792.rank) ∈ dot_S256x1792_S1792x256_S256x256_1_0_0_1_n_n.lhsBatch by decide), dif_pos (show (0 : Fin S256x1792.rank) ∈ dot_S256x1792_S1792x256_S256x256_1_0_0_1_n_n.lhsNonContracting by decide)]
  rfl
theorem big_r1 (j : S256x256.Idx) (c : dot_S256x1792_S1792x256_S256x256_1_0_0_1_n_n.contr.Idx) :
    (dot_S256x1792_S1792x256_S256x256_1_0_0_1_n_n.rhsIdx j c 1).val = (j 1).val := by
  unfold DotDims.rhsIdx
  rw [dif_neg (show ¬(1 : Fin S1792x256.rank) ∈ dot_S256x1792_S1792x256_S256x256_1_0_0_1_n_n.rhsBatch by decide), dif_pos (show (1 : Fin S1792x256.rank) ∈ dot_S256x1792_S1792x256_S256x256_1_0_0_1_n_n.rhsNonContracting by decide)]
  rfl
theorem small_l0 (j : S256x256.Idx) (c : dot_S256x256_S256x256_S256x256_1_0_0_1_n_n.contr.Idx) :
    (dot_S256x256_S256x256_S256x256_1_0_0_1_n_n.lhsIdx j c 0).val = (j 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem small_r1 (j : S256x256.Idx) (c : dot_S256x256_S256x256_S256x256_1_0_0_1_n_n.contr.Idx) :
    (dot_S256x256_S256x256_S256x256_1_0_0_1_n_n.rhsIdx j c 1).val = (j 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The [256,1792] × [1792,256] product into the zero block, at (p, q). -/
theorem dotBig_apply (l : FVec Ideal S256x1792 .bf16) (r : FVec Ideal S1792x256 .bf16) (p q : Fin 256) :
    matmul (F := Ideal) dot_S256x1792_S1792x256_S256x256_1_0_0_1_n_n none l r (constant (F := Ideal) S256x256 .f32 0x00000000#32) (ix2 p q)
      = ∑ k : Fin 1792, l (ix2 p k) * r (ix2 k q) :=
  Cert.LibPlainDot.matmul_zero_apply dot_S256x1792_S1792x256_S256x256_1_0_0_1_n_n rfl rfl big_l0 big_r1 rfl rfl none l r p q

/-- The [256,256] × [256,256] product into the zero block, at (p, q). -/
theorem dotSmall_apply (l : FVec Ideal S256x256 .bf16) (r : FVec Ideal S256x256 .bf16) (p q : Fin 256) :
    matmul (F := Ideal) dot_S256x256_S256x256_S256x256_1_0_0_1_n_n none l r (constant (F := Ideal) S256x256 .f32 0x00000000#32) (ix2 p q)
      = ∑ k : Fin 256, l (ix2 p k) * r (ix2 k q) :=
  Cert.LibPlainDot.matmul_zero_apply dot_S256x256_S256x256_S256x256_1_0_0_1_n_n rfl rfl small_l0 small_r1 rfl rfl none l r p q

/-! ## The step's operands at an index -/

/-- The buffer block's first 1792 columns, as the step's left operand. -/
theorem pay7_apply (memB : Vec Ideal S256x2048 .f32) (p : Fin 256) (k : Fin 1792) :
    k0_pay7 (F := Ideal) memB (ix2 p k) = memB (ix2 p ⟨k.val, by have := k.isLt; omega⟩) := by
  unfold k0_pay7 k0_pay5
  show extractStridedSlice S256x1792 ![0, 0] (shapeCast S256x2048 memB shapeCasts_S256x2048_S256x2048) slices_S256x2048_o0_0_S256x1792 (ix2 p k) = _
  rw [shapeCast_self]
  exact slice2_axis1_apply 0 memB slices_S256x2048_o0_0_S256x1792 p k ⟨k.val, by have := k.isLt; omega⟩ (by simp)

/-- The weight block's rows 256 onward, as the right operand of the long product. -/
theorem pay9_apply (w : Vec Ideal S2048x256 .f32) (k : Fin 1792) (q : Fin 256) :
    k0_pay9 (F := Ideal) w (ix2 k q) = w (ix2 ⟨256 + k.val, by have := k.isLt; omega⟩ q) := by
  unfold k0_pay9
  show extractStridedSlice S1792x256 ![256, 0] w slices_S2048x256_o256_0_S1792x256 (ix2 k q) = _
  exact slice2_axis0_apply 256 w slices_S2048x256_o256_0_S1792x256 k q ⟨256 + k.val, by have := k.isLt; omega⟩ rfl

/-- The weight block's first 256 rows, as the right operand of the short product. -/
theorem pay10_apply (w : Vec Ideal S2048x256 .f32) (j q : Fin 256) :
    k0_pay10 (F := Ideal) w (ix2 j q) = w (ix2 ⟨j.val, by have := j.isLt; omega⟩ q) := by
  unfold k0_pay10
  show extractStridedSlice S256x256 ![0, 0] w slices_S2048x256_o0_0_S256x256 (ix2 j q) = _
  exact slice2_axis0_apply 0 w slices_S2048x256_o0_0_S256x256 j q ⟨j.val, by have := j.isLt; omega⟩ (by simp)

/-- the 256-column piece the step multiplies against the weight block's first rows -/
def piece (i : grid0.Coords) (xB tailB : Vec Ideal S256x256 .f32) : Vec Ideal S256x256 .f32 :=
  Scalar.select (Scalar.cmpi .eq (BitVec.ofNat 32 (i 1).val) 0#32) xB tailB

/-- The short product's left operand is that piece. -/
theorem pay8_eq (i : grid0.Coords) (xB tailB : Vec Ideal S256x256 .f32) (j : S256x256.Idx) :
    k0_pay8 (F := Ideal) i xB tailB j = piece i xB tailB j := rfl

/-! ## The zero blocks and the carried tail -/

theorem zeroAcc1_apply (p q : Fin 256) : zeroAcc1 (F := Ideal) (ix2 p q) = 0 := by
  unfold zeroAcc1 k0_pay3
  show shapeCast S256x256 (broadcast S256x256 (Scalar.ofBits (F := Ideal) .f32 0x00000000#32)) shapeCasts_S256x256_S256x256 (ix2 p q) = 0
  rw [shapeCast_self]
  exact Ideal.ofBits_zero_f32

theorem zeroAccG_apply (p q : Fin 256) : zeroAccG (F := Ideal) (ix2 p q) = 0 := by
  unfold zeroAccG k0_pay4
  show shapeCast S256x256 (broadcast S256x256 (Scalar.ofBits (F := Ideal) .f32 0x00000000#32)) shapeCasts_S256x256_S256x256 (ix2 p q) = 0
  rw [shapeCast_self]
  exact Ideal.ofBits_zero_f32

theorem tailNext_apply (memB : Vec Ideal S256x2048 .f32) (p q : Fin 256) :
    tailNext (F := Ideal) memB (ix2 p q) = memB (ix2 p ⟨1792 + q.val, by have := q.isLt; omega⟩) := by
  unfold tailNext k0_pay6 k0_pay5
  show shapeCast S256x256 (extractStridedSlice S256x256 ![0, 1792] (shapeCast S256x2048 memB shapeCasts_S256x2048_S256x2048) slices_S256x2048_o0_1792_S256x256) shapeCasts_S256x256_S256x256 (ix2 p q) = _
  rw [shapeCast_self, shapeCast_self]
  exact slice2_axis1_apply 1792 memB slices_S256x2048_o0_1792_S256x256 p q ⟨1792 + q.val, by have := q.isLt; omega⟩ rfl

/-! ## One step of an accumulator -/

/-- An accumulator after a step, at (p, q): what it held, plus the long product, plus the short one. -/
theorem step_apply (l1 : FVec Ideal S256x1792 .bf16) (l2 : FVec Ideal S256x256 .bf16) (r1 : FVec Ideal S1792x256 .bf16)
    (r2 : FVec Ideal S256x256 .bf16) (a : Vec Ideal S256x256 .f32) (p q : Fin 256) :
    k0_pay1 (F := Ideal) l1 l2 r1 r2 a (ix2 p q)
      = a (ix2 p q) + ((∑ k : Fin 1792, l1 (ix2 p k) * r1 (ix2 k q)) + ∑ j : Fin 256, l2 (ix2 p j) * r2 (ix2 j q)) := by
  unfold k0_pay1
  show shapeCast S256x256 (addf a (addf
      (matmul (F := Ideal) dot_S256x1792_S1792x256_S256x256_1_0_0_1_n_n none l1 r1 (constant (F := Ideal) S256x256 .f32 0x00000000#32))
      (matmul (F := Ideal) dot_S256x256_S256x256_S256x256_1_0_0_1_n_n none l2 r2 (constant (F := Ideal) S256x256 .f32 0x00000000#32))))
    shapeCasts_S256x256_S256x256 (ix2 p q) = _
  rw [shapeCast_self]
  exact congrArg (a (ix2 p q) + ·) (congrArg₂ (· + ·) (dotBig_apply l1 r1 p q) (dotSmall_apply l2 r2 p q))

/-- The block the tanh branch stores is the shared step arithmetic applied to the four operands cut from the blocks. -/
theorem pay11_eq (i : grid0.Coords) (memB : Vec Ideal S256x2048 .f32) (xB tailB : Vec Ideal S256x256 .f32)
    (w1B : Vec Ideal S2048x256 .f32) (a : Vec Ideal S256x256 .f32) :
    k0_pay11 (F := Ideal) i memB xB tailB w1B a
      = k0_pay1 (F := Ideal) (k0_pay7 memB) (k0_pay8 i xB tailB) (k0_pay9 w1B) (k0_pay10 w1B) a := rfl

/-- Either branch's accumulator after a step, in the block's and the weight block's own coordinates. -/
theorem branch_apply (i : grid0.Coords) (memB : Vec Ideal S256x2048 .f32) (xB tailB : Vec Ideal S256x256 .f32)
    (wB : Vec Ideal S2048x256 .f32) (a : Vec Ideal S256x256 .f32) (p q : Fin 256) :
    k0_pay1 (F := Ideal) (k0_pay7 memB) (k0_pay8 i xB tailB) (k0_pay9 wB) (k0_pay10 wB) a (ix2 p q)
      = a (ix2 p q) + ((∑ j : Fin 1792, memB (ix2 p ⟨j.val, by have := j.isLt; omega⟩) * wB (ix2 ⟨256 + j.val, by have := j.isLt; omega⟩ q))
                      + ∑ j : Fin 256, piece i xB tailB (ix2 p j) * wB (ix2 ⟨j.val, by have := j.isLt; omega⟩ q)) := by
  refine (step_apply _ _ _ _ a p q).trans ?_
  refine congrArg (a (ix2 p q) + ·) (congrArg₂ (· + ·) (Finset.sum_congr rfl fun k _ => ?_) (Finset.sum_congr rfl fun j _ => ?_))
  · rw [pay7_apply, pay9_apply]
  · rw [pay8_eq, pay10_apply]

theorem acc1Next_apply (i : grid0.Coords) (memB : Vec Ideal S256x2048 .f32) (xB tailB : Vec Ideal S256x256 .f32)
    (w1B : Vec Ideal S2048x256 .f32) (a : Vec Ideal S256x256 .f32) (p q : Fin 256) :
    acc1Next (F := Ideal) i memB xB tailB w1B a (ix2 p q)
      = a (ix2 p q) + ((∑ j : Fin 1792, memB (ix2 p ⟨j.val, by have := j.isLt; omega⟩) * w1B (ix2 ⟨256 + j.val, by have := j.isLt; omega⟩ q))
                      + ∑ j : Fin 256, piece i xB tailB (ix2 p j) * w1B (ix2 ⟨j.val, by have := j.isLt; omega⟩ q)) := by
  unfold acc1Next
  rw [pay11_eq]
  exact branch_apply i memB xB tailB w1B a p q

theorem accGNext_apply (i : grid0.Coords) (memB : Vec Ideal S256x2048 .f32) (xB tailB : Vec Ideal S256x256 .f32)
    (wgB : Vec Ideal S2048x256 .f32) (a : Vec Ideal S256x256 .f32) (p q : Fin 256) :
    accGNext (F := Ideal) i memB xB tailB wgB a (ix2 p q)
      = a (ix2 p q) + ((∑ j : Fin 1792, memB (ix2 p ⟨j.val, by have := j.isLt; omega⟩) * wgB (ix2 ⟨256 + j.val, by have := j.isLt; omega⟩ q))
                      + ∑ j : Fin 256, piece i xB tailB (ix2 p j) * wgB (ix2 ⟨j.val, by have := j.isLt; omega⟩ q)) := by
  unfold accGNext
  exact branch_apply i memB xB tailB wgB a p q

/-! ## The output block -/

theorem outOf_apply (a1 : Vec Ideal S256x256 .f32) (b1B : Vec Ideal S1x256 .f32) (ag : Vec Ideal S256x256 .f32) (bgB : Vec Ideal S1x256 .f32)
    (w2B : Vec Ideal S256x256 .f32) (b2B : Vec Ideal S1x256 .f32) (p q : Fin 256) :
    outOf (F := Ideal) a1 b1B ag bgB w2B b2B (ix2 p q)
      = (∑ h : Fin 256, (Ideal.tanh (a1 (ix2 p h) + b1B (ix2 0 h)) * Ideal.logistic (ag (ix2 p h) + bgB (ix2 0 h))) * w2B (ix2 h q))
        + b2B (ix2 0 q) := by
  unfold outOf k0_pay2
  show addf
      (matmul (F := Ideal) dot_S256x256_S256x256_S256x256_1_0_0_1_n_n none
        (truncf .bf16 (mulf
          (tanh (addf a1 (broadcastTo S256x256 (shapeCast S1x256 b1B shapeCasts_S1x256_S1x256) broadcasts_S1x256_S256x256)))
          (logistic (addf ag (broadcastTo S256x256 (shapeCast S1x256 bgB shapeCasts_S1x256_S1x256) broadcasts_S1x256_S256x256))))
          bitsLt_bf16_f32)
        (truncf .bf16 w2B bitsLt_bf16_f32) (constant (F := Ideal) S256x256 .f32 0x00000000#32))
      (broadcastTo S256x256 (shapeCast S1x256 b2B shapeCasts_S1x256_S1x256) broadcasts_S1x256_S256x256) (ix2 p q) = _
  rw [shapeCast_self, shapeCast_self, shapeCast_self]
  refine (congrArg₂ (· + ·) (dotSmall_apply _ _ p q) (broadcastTo_1b_ab_apply b2B broadcasts_S1x256_S256x256 p q)).trans ?_
  refine congrArg (· + b2B (ix2 0 q)) (Finset.sum_congr rfl fun h _ => ?_)
  show (Ideal.tanh (a1 (ix2 p h) + broadcastTo S256x256 b1B broadcasts_S1x256_S256x256 (ix2 p h))
      * Ideal.logistic (ag (ix2 p h) + broadcastTo S256x256 bgB broadcasts_S1x256_S256x256 (ix2 p h))) * w2B (ix2 h q) = _
  rw [broadcastTo_1b_ab_apply, broadcastTo_1b_ab_apply]

end Cert.KernelIdeal.Payload

end
-- ==== Proof.LibChunkSum.lean ====
/-
  A sum taken chunk by chunk. A running total that starts at zero and, at step `c`, adds the sum of the
  `b` consecutive terms `g (b * c), …, g (b * c + b - 1)`, holds after `n` steps the sum of the first
  `b * n` terms. Only commutativity and associativity of addition are used, so the statement holds in any
  additive commutative monoid — in particular on the extended reals, where no finiteness is needed.
-/
import Mathlib.Algebra.BigOperators.Fin

namespace ChunkSum

open Finset

variable {M : Type*} [AddCommMonoid M]

/-- The running total after `c` chunks of `b` terms each, from `init`. -/
def running (b : ℕ) (g : ℕ → M) (init : M) : ℕ → M
  | 0 => init
  | c + 1 => running b g init c + ∑ k : Fin b, g (b * c + k.val)

@[simp] theorem running_zero (b : ℕ) (g : ℕ → M) (init : M) : running b g init 0 = init := rfl

theorem running_succ (b : ℕ) (g : ℕ → M) (init : M) (c : ℕ) :
    running b g init (c + 1) = running b g init c + ∑ k : Fin b, g (b * c + k.val) := rfl

/-- After `n` chunks the running total is `init` plus the sum of the first `b * n` terms. -/
theorem running_eq_range (b : ℕ) (g : ℕ → M) (init : M) (n : ℕ) :
    running b g init n = init + ∑ i ∈ range (b * n), g i := by
  induction n with
  | zero => simp
  | succ c ih =>
    rw [running_succ, ih, Nat.mul_succ, sum_range_add, add_assoc]
    congr 2
    exact Fin.sum_univ_eq_sum_range (fun k => g (b * c + k)) b

/-- The same, with the total written over `Fin N` for `N = b * n`. -/
theorem running_eq_sum (b n N : ℕ) (hN : N = b * n) (g : ℕ → M) (init : M) :
    running b g init n = init + ∑ i : Fin N, g i.val := by
  subst hN
  rw [running_eq_range, Fin.sum_univ_eq_sum_range (fun i => g i) (b * n)]

end ChunkSum
-- ==== Proof.Regroup.lean ====
/-
  One long sum regrouped into sixteen steps.

  The contraction of a flattened, advanced ring buffer of 32768 positions against a weight column is split
  into 16 consecutive blocks of 2048 positions. Inside block `k` the first 256 positions are split off from
  the remaining 1792. Because the advanced buffer is the old buffer moved up by 256 positions (with the new
  row in the first 256), the 1792 later positions of block `k` hold the FIRST 1792 positions of block `k` of
  the old buffer, and the first 256 positions of block `k` hold the LAST 256 positions of block `k - 1` of
  the old buffer (the new row when `k = 0`).

  Only commutativity and associativity of addition are used for the regrouping, so it is valid in any
  additive commutative monoid, in particular on the extended reals with no finiteness assumption.
-/
import proofs.«118517_j40699110097066_2_alg».proof.Proof.Spec
import proofs.«118517_j40699110097066_2_alg».proof.Proof.LibChunkSum
import Mathlib.Algebra.BigOperators.Fin
import Mathlib.Data.EReal.Basic

noncomputable section

namespace Cert.Regroup

open Cert.Spec Idealize.ShloMosaic Idealize.ShloMosaic.ValueIdx
open Finset

/-- The first `b * n` terms of a sequence, summed block by block: `n` blocks of `b` consecutive terms. -/
theorem sum_range_blocks {M : Type*} [AddCommMonoid M] (g : ℕ → M) (b n : ℕ) :
    ∑ i ∈ range (b * n), g i = ∑ c ∈ range n, ∑ j ∈ range b, g (b * c + j) := by
  induction n with
  | zero => simp
  | succ n ih => rw [Nat.mul_succ, sum_range_add, ih, sum_range_succ]

/-- The sum over 32768 positions is the sum over 16 blocks of 2048; each block is its positions
`256 … 2047` (1792 of them) plus its positions `0 … 255`. -/
theorem sum_blocks {M : Type*} [AddCommMonoid M] (f : Fin 32768 → M) :
    ∑ n : Fin 32768, f n
      = ∑ k : Fin 16, ((∑ j : Fin 1792, f ⟨2048 * k.val + 256 + j.val, by have := k.isLt; have := j.isLt; omega⟩)
                      + ∑ j : Fin 256, f ⟨2048 * k.val + j.val, by have := k.isLt; have := j.isLt; omega⟩) := by
  -- extend `f` by zero to all naturals, so that the regrouping can be done on ranges of naturals
  let g : ℕ → M := fun n => if h : n < 32768 then f ⟨n, h⟩ else 0
  have hg : ∀ (n : ℕ) (h : n < 32768), g n = f ⟨n, h⟩ := fun n h => dif_pos h
  have h1 : ∑ n : Fin 32768, f n = ∑ i ∈ range (2048 * 16), g i := by
    rw [show (2048 * 16 : ℕ) = 32768 from rfl, ← Fin.sum_univ_eq_sum_range g 32768]
    exact Finset.sum_congr rfl (fun n _ => (hg n.val n.isLt).symm)
  rw [h1, sum_range_blocks, ← Fin.sum_univ_eq_sum_range (fun c => ∑ j ∈ range 2048, g (2048 * c + j)) 16]
  refine Finset.sum_congr rfl (fun k _ => ?_)
  have hk := k.isLt
  have h2 : ∑ j ∈ range 2048, g (2048 * k.val + j)
      = ∑ j ∈ range 256, g (2048 * k.val + j) + ∑ j ∈ range 1792, g (2048 * k.val + (256 + j)) :=
    sum_range_add (fun j => g (2048 * k.val + j)) 256 1792
  rw [h2, add_comm,
    ← Fin.sum_univ_eq_sum_range (fun j => g (2048 * k.val + (256 + j))) 1792,
    ← Fin.sum_univ_eq_sum_range (fun j => g (2048 * k.val + j)) 256]
  refine congrArg₂ (· + ·) ?_ ?_
  · refine Finset.sum_congr rfl (fun j _ => ?_)
    have hj := j.isLt
    have e : 2048 * k.val + (256 + j.val) = 2048 * k.val + 256 + j.val := by omega
    rw [e]
    exact hg _ (by omega)
  · refine Finset.sum_congr rfl (fun j _ => ?_)
    have hj := j.isLt
    exact hg _ (by omega)

/-- Past the first 256 positions of a block, the advanced buffer holds the old buffer 256 positions earlier. -/
theorem flat_head (x : A2 512 256) (mem : A3 512 128 256) (b : Fin 512) (k : Fin 16) (j : Fin 1792) :
    flat x mem b ⟨2048 * k.val + 256 + j.val, by have := k.isLt; have := j.isLt; omega⟩
      = memFlat mem b ⟨2048 * k.val + j.val, by have := k.isLt; have := j.isLt; omega⟩ := by
  unfold flat
  rw [dif_neg (by show ¬ (2048 * k.val + 256 + j.val < 256); omega)]
  exact congrArg (memFlat mem b)
    (Fin.ext (by show 2048 * k.val + 256 + j.val - 256 = 2048 * k.val + j.val; omega))

/-- The first 256 positions of the advanced buffer hold the new row. -/
theorem flat_first (x : A2 512 256) (mem : A3 512 128 256) (b : Fin 512) (j : Fin 256) :
    flat x mem b ⟨j.val, by have := j.isLt; omega⟩ = x (ix2 b j) := by
  unfold flat
  rw [dif_pos (show j.val < 256 from j.isLt)]

/-- The first 256 positions of a later block hold the last 256 positions of the previous block of the old buffer. -/
theorem flat_prev (x : A2 512 256) (mem : A3 512 128 256) (b : Fin 512) (k : Fin 16) (hk : 0 < k.val) (j : Fin 256) :
    flat x mem b ⟨2048 * k.val + j.val, by have := k.isLt; have := j.isLt; omega⟩
      = memFlat mem b ⟨2048 * (k.val - 1) + 1792 + j.val, by have := k.isLt; have := j.isLt; omega⟩ := by
  unfold flat
  rw [dif_neg (by show ¬ (2048 * k.val + j.val < 256); omega)]
  exact congrArg (memFlat mem b)
    (Fin.ext (by show 2048 * k.val + j.val - 256 = 2048 * (k.val - 1) + 1792 + j.val; omega))

/-- The 256-column piece step k multiplies against the weight block's first 256 rows. -/
def prevPiece (x : A2 512 256) (mem : A3 512 128 256) (b : Fin 512) (k : Fin 16) (j : Fin 256) : EReal :=
  if k.val = 0 then x (ix2 b j) else memFlat mem b ⟨2048 * (k.val - 1) + 1792 + j.val, by have := k.isLt; have := j.isLt; omega⟩

/-- The first 256 positions of block `k` of the advanced buffer are the carried piece of step `k`. -/
theorem flat_piece (x : A2 512 256) (mem : A3 512 128 256) (b : Fin 512) (k : Fin 16) (j : Fin 256) :
    flat x mem b ⟨2048 * k.val + j.val, by have := k.isLt; have := j.isLt; omega⟩ = prevPiece x mem b k j := by
  unfold prevPiece
  split_ifs with hk
  · have e : (⟨2048 * k.val + j.val, by have := k.isLt; have := j.isLt; omega⟩ : Fin 32768)
        = ⟨j.val, by have := j.isLt; omega⟩ := Fin.ext (by show 2048 * k.val + j.val = j.val; omega)
    rw [e]
    exact flat_first x mem b j
  · exact flat_prev x mem b k (Nat.pos_of_ne_zero hk) j

/-- What step k adds to an accumulator entry (row b of the whole array, hidden column h). -/
def stepTerm (x : A2 512 256) (mem : A3 512 128 256) (W : A2 32768 256) (b : Fin 512) (h : Fin 256) (k : Fin 16) : EReal :=
  (∑ j : Fin 1792, memFlat mem b ⟨2048 * k.val + j.val, by have := k.isLt; have := j.isLt; omega⟩
        * W (ix2 ⟨2048 * k.val + 256 + j.val, by have := k.isLt; have := j.isLt; omega⟩ h))
  + ∑ j : Fin 256, prevPiece x mem b k j * W (ix2 ⟨2048 * k.val + j.val, by have := k.isLt; have := j.isLt; omega⟩ h)

/-- One dense branch before its nonlinearity is the sum of the sixteen step contributions plus the bias. -/
theorem pre_eq_steps (x : A2 512 256) (mem : A3 512 128 256) (W : A2 32768 256) (bias : A1 256) (b : Fin 512) (h : Fin 256) :
    pre x mem W bias b h = (∑ k : Fin 16, stepTerm x mem W b h k) + bias (ix1 h) := by
  unfold pre
  rw [sum_blocks (fun n => flat x mem b n * W (ix2 n h))]
  refine congrArg (fun t => t + bias (ix1 h)) ?_
  refine Finset.sum_congr rfl (fun k _ => ?_)
  unfold stepTerm
  refine congrArg₂ (· + ·) ?_ ?_
  · refine Finset.sum_congr rfl (fun j _ => ?_)
    beta_reduce
    rw [flat_head]
  · refine Finset.sum_congr rfl (fun j _ => ?_)
    beta_reduce
    rw [flat_piece]

/-- An accumulator that starts from zero at step 0 and adds a term per step holds the partial sum. -/
theorem running_total {M : Type*} [AddCommMonoid M] (s a : ℕ → M) (h0 : a 0 = 0 + s 0) (hs : ∀ k, a (k + 1) = a k + s (k + 1)) (k : ℕ) :
    a k = ∑ k' ∈ Finset.range (k + 1), s k' := by
  induction k with
  | zero => rw [h0, zero_add, Finset.sum_range_one]
  | succ k ih => rw [hs, ih, Finset.sum_range_succ _ (k + 1)]

/-- Sixteen terms summed over a range of naturals or over `Fin 16`. -/
theorem sum_fin16 {M : Type*} [AddCommMonoid M] (s : ℕ → M) : ∑ k' ∈ Finset.range 16, s k' = ∑ k : Fin 16, s k.val :=
  (Fin.sum_univ_eq_sum_range s 16).symm

end Cert.Regroup

end
-- ==== Proof.BlockReads.lean ====
/-
  The input windows' blocks, read at an index.

  The grid has 2 × 16 points, the second coordinate fast: point `t` is batch tile `i = t / 16` at step `k = t % 16`.
  At that point
    * window 0 holds the [256, 2048] block (i, k) of the old buffer flattened to [512, 32768]: its entry (p, j) is
      position `2048 k + j` of row `256 i + p`, that is lane `(2048 k + j) % 256` of slot `(2048 k + j) / 256`;
    * window 1 holds the [256, 256] block (i, 0) of the new rows;
    * windows 2 and 3 hold the [2048, 256] block (k, 0) of the two first-layer weight arrays;
    * windows 4, 5 and 7 hold the three bias vectors, each reshaped to one row [1, 256];
    * window 6 holds the whole second-layer weight array.
  A block's coordinate on an axis is (block index) × (block extent) + (coordinate inside the block); the block indices
  are decided once over the 32 points, and a reshape is read through the row-major position, which it keeps.
-/
import proofs.«118517_j40699110097066_2_alg».proof.Proof.Gen.KernelIdeal.Frame
import proofs.«118517_j40699110097066_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.BlockReads

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (c : Dev nD)

/-! ## The printed index maps over the grid

The grid is 2 × 16 with the second coordinate fast: point `t` is batch tile `t / 16`, step `t % 16`. -/

/-- Each window's block index at point `t`, decided once over the 32 points: the flattened buffer moves with
    (tile, step), the new row with the tile, the two weight arrays with the step, the rest stay at block (0, 0). -/
theorem idx_facts : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = 0
    ∧ win0_2.index t (0 : Fin 2) = t.val % 16 ∧ win0_2.index t (1 : Fin 2) = 0
    ∧ win0_3.index t (0 : Fin 2) = t.val % 16 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The arrays the reshapes wrote before the region -/

/-- The flattened buffer the region finds is the launched rank-3 buffer reshaped to [512, 32768]. -/
theorem V_main_v0 : (V m c main_v0 : S512x32768.Idx → EReal)
    = shapeCast S512x32768 (m ((c : Thread nD τ).loc main_arg1)) shapeCasts_S512x128x256_S512x32768 := by
  dsimp only [Gen.V, Gen.hostOps0]; after_results; rfl

/-- The first bias row the region finds is the launched bias vector reshaped to [1, 256]. -/
theorem V_main_v1 : (V m c main_v1 : S1x256.Idx → EReal)
    = shapeCast S1x256 (m ((c : Thread nD τ).loc main_arg3)) shapeCasts_S256_S1x256 := by
  dsimp only [Gen.V, Gen.hostOps0]; after_results; rfl

/-- The gate's bias row the region finds is the launched bias vector reshaped to [1, 256]. -/
theorem V_main_v2 : (V m c main_v2 : S1x256.Idx → EReal)
    = shapeCast S1x256 (m ((c : Thread nD τ).loc main_arg5)) shapeCasts_S256_S1x256 := by
  dsimp only [Gen.V, Gen.hostOps0]; after_results; rfl

/-- The second layer's bias row the region finds is the launched bias vector reshaped to [1, 256]. -/
theorem V_main_v3 : (V m c main_v3 : S1x256.Idx → EReal)
    = shapeCast S1x256 (m ((c : Thread nD τ).loc main_arg7)) shapeCasts_S256_S1x256 := by
  dsimp only [Gen.V, Gen.hostOps0]; after_results; rfl

/-! ## Each block read at an index

A block's coordinate on an axis is always (block index) × (block extent) + 1 × (coordinate inside the block). -/

/-- Window 0: entry (p, j) of the block of tile `i`, step `k` is row `256 i + p`, position `2048 k + j` of the
    old buffer flattened. -/
theorem blk0_apply (t : Fin cfg0.N) (i : Fin 2) (k : Fin 16) (ht : t.val = 16 * i.val + k.val) (p : Fin 256) (j : Fin 2048) :
    (iblk (F := Ideal) m c 0 t : Vec Ideal S256x2048 .f32) (ix2 p j)
      = Cert.Spec.memFlat (m ((c : Thread nD τ).loc main_arg1))
          ⟨256 * i.val + p.val, by have := i.isLt; have := p.isLt; omega⟩
          ⟨2048 * k.val + j.val, by have := k.isLt; have := j.isLt; omega⟩ := by
  obtain ⟨e0, e1, -⟩ := idx_facts t
  have hi := i.isLt
  have hk := k.isLt
  have hp := p.isLt
  have hj := j.isLt
  unfold iblk
  rw [View.read_apply]
  show V m c main_v0 _ = _
  rw [V_main_v0]
  unfold Cert.Spec.memFlat
  refine shapeCast_apply (s := S512x128x256) (t := S512x32768) _ _ _ _ ?_
  rw [Shape.rowMajor_val_three, Shape.rowMajor_val_two]
  show ((256 * i.val + p.val) * 128 + (2048 * k.val + j.val) / 256) * 256 + (2048 * k.val + j.val) % 256
      = (win0_0.index t (0 : Fin 2) * 256 + 1 * p.val) * 32768 + (win0_0.index t (1 : Fin 2) * 2048 + 1 * j.val)
  rw [e0, e1]
  omega

/-- Window 1: entry (p, j) of the block of tile `i` is row `256 i + p`, lane `j` of the new row array. -/
theorem blk1_apply (t : Fin cfg0.N) (i : Fin 2) (k : Fin 16) (ht : t.val = 16 * i.val + k.val) (p : Fin 256) (j : Fin 256) :
    (iblk (F := Ideal) m c 1 t : Vec Ideal S256x256 .f32) (ix2 p j)
      = (m ((c : Thread nD τ).loc main_arg0) : S512x256.Idx → EReal)
          (ix2 ⟨256 * i.val + p.val, by have := i.isLt; have := p.isLt; omega⟩ j) := by
  obtain ⟨-, -, e0, e1, -⟩ := idx_facts t
  have hi := i.isLt
  have hk := k.isLt
  unfold iblk
  rw [View.read_apply]
  show V m c main_arg0 _ = m ((c : Thread nD τ).loc main_arg0) _
  rw [V_main_arg0]
  refine congrArg _ (funext fun a => Fin.ext ?_)
  match a with
  | ⟨0, _⟩ => show win0_1.index t (0 : Fin 2) * 256 + 1 * p.val = 256 * i.val + p.val; rw [e0]; omega
  | ⟨1, _⟩ => show win0_1.index t (1 : Fin 2) * 256 + 1 * j.val = j.val; rw [e1]; omega

/-- Window 2: entry (r, q) of the block of step `k` is row `2048 k + r`, column `q` of the first weight array. -/
theorem blk2_apply (t : Fin cfg0.N) (i : Fin 2) (k : Fin 16) (ht : t.val = 16 * i.val + k.val) (r : Fin 2048) (q : Fin 256) :
    (iblk (F := Ideal) m c 2 t : Vec Ideal S2048x256 .f32) (ix2 r q)
      = (m ((c : Thread nD τ).loc main_arg2) : S32768x256.Idx → EReal)
          (ix2 ⟨2048 * k.val + r.val, by have := k.isLt; have := r.isLt; omega⟩ q) := by
  obtain ⟨-, -, -, -, e0, e1, -⟩ := idx_facts t
  have hi := i.isLt
  have hk := k.isLt
  unfold iblk
  rw [View.read_apply]
  show V m c main_arg2 _ = m ((c : Thread nD τ).loc main_arg2) _
  rw [V_main_arg2]
  refine congrArg _ (funext fun a => Fin.ext ?_)
  match a with
  | ⟨0, _⟩ => show win0_2.index t (0 : Fin 2) * 2048 + 1 * r.val = 2048 * k.val + r.val; rw [e0]; omega
  | ⟨1, _⟩ => show win0_2.index t (1 : Fin 2) * 256 + 1 * q.val = q.val; rw [e1]; omega

/-- Window 3: entry (r, q) of the block of step `k` is row `2048 k + r`, column `q` of the gate's weight array. -/
theorem blk3_apply (t : Fin cfg0.N) (i : Fin 2) (k : Fin 16) (ht : t.val = 16 * i.val + k.val) (r : Fin 2048) (q : Fin 256) :
    (iblk (F := Ideal) m c 3 t : Vec Ideal S2048x256 .f32) (ix2 r q)
      = (m ((c : Thread nD τ).loc main_arg4) : S32768x256.Idx → EReal)
          (ix2 ⟨2048 * k.val + r.val, by have := k.isLt; have := r.isLt; omega⟩ q) := by
  obtain ⟨-, -, -, -, -, -, e0, e1, -⟩ := idx_facts t
  have hi := i.isLt
  have hk := k.isLt
  unfold iblk
  rw [View.read_apply]
  show V m c main_arg4 _ = m ((c : Thread nD τ).loc main_arg4) _
  rw [V_main_arg4]
  refine congrArg _ (funext fun a => Fin.ext ?_)
  match a with
  | ⟨0, _⟩ => show win0_3.index t (0 : Fin 2) * 2048 + 1 * r.val = 2048 * k.val + r.val; rw [e0]; omega
  | ⟨1, _⟩ => show win0_3.index t (1 : Fin 2) * 256 + 1 * q.val = q.val; rw [e1]; omega

/-- Window 4: the whole [1, 256] row; entry (0, h) is entry `h` of the first bias vector. -/
theorem blk4_apply (t : Fin cfg0.N) (h : Fin 256) :
    (iblk (F := Ideal) m c 4 t : Vec Ideal S1x256 .f32) (ix2 (0 : Fin 1) h)
      = (m ((c : Thread nD τ).loc main_arg3) : S256.Idx → EReal) (ix1 h) := by
  obtain ⟨-, -, -, -, -, -, -, -, e0, e1, -⟩ := idx_facts t
  unfold iblk
  rw [View.read_apply]
  show V m c main_v1 _ = _
  rw [V_main_v1]
  refine shapeCast_apply _ _ _ (ix1 h) ?_
  rw [Shape.rowMajor_val_one, Shape.rowMajor_val_two]
  show h.val = (win0_4.index t (0 : Fin 2) * 1 + 1 * 0) * 256 + (win0_4.index t (1 : Fin 2) * 256 + 1 * h.val)
  rw [e0, e1]
  omega

/-- Window 5: the whole [1, 256] row; entry (0, h) is entry `h` of the gate's bias vector. -/
theorem blk5_apply (t : Fin cfg0.N) (h : Fin 256) :
    (iblk (F := Ideal) m c 5 t : Vec Ideal S1x256 .f32) (ix2 (0 : Fin 1) h)
      = (m ((c : Thread nD τ).loc main_arg5) : S256.Idx → EReal) (ix1 h) := by
  obtain ⟨-, -, -, -, -, -, -, -, -, -, e0, e1, -⟩ := idx_facts t
  unfold iblk
  rw [View.read_apply]
  show V m c main_v2 _ = _
  rw [V_main_v2]
  refine shapeCast_apply _ _ _ (ix1 h) ?_
  rw [Shape.rowMajor_val_one, Shape.rowMajor_val_two]
  show h.val = (win0_5.index t (0 : Fin 2) * 1 + 1 * 0) * 256 + (win0_5.index t (1 : Fin 2) * 256 + 1 * h.val)
  rw [e0, e1]
  omega

/-- Window 6: the whole [256, 256] array; entry (h, q) is entry (h, q) of the second layer's weight array. -/
theorem blk6_apply (t : Fin cfg0.N) (h q : Fin 256) :
    (iblk (F := Ideal) m c 6 t : Vec Ideal S256x256 .f32) (ix2 h q)
      = (m ((c : Thread nD τ).loc main_arg6) : S256x256.Idx → EReal) (ix2 h q) := by
  obtain ⟨-, -, -, -, -, -, -, -, -, -, -, -, e0, e1, -⟩ := idx_facts t
  unfold iblk
  rw [View.read_apply]
  show V m c main_arg6 _ = m ((c : Thread nD τ).loc main_arg6) _
  rw [V_main_arg6]
  refine congrArg _ (funext fun a => Fin.ext ?_)
  match a with
  | ⟨0, _⟩ => show win0_6.index t (0 : Fin 2) * 256 + 1 * h.val = h.val; rw [e0]; omega
  | ⟨1, _⟩ => show win0_6.index t (1 : Fin 2) * 256 + 1 * q.val = q.val; rw [e1]; omega

/-- Window 7: the whole [1, 256] row; entry (0, h) is entry `h` of the second layer's bias vector. -/
theorem blk7_apply (t : Fin cfg0.N) (h : Fin 256) :
    (iblk (F := Ideal) m c 7 t : Vec Ideal S1x256 .f32) (ix2 (0 : Fin 1) h)
      = (m ((c : Thread nD τ).loc main_arg7) : S256.Idx → EReal) (ix1 h) := by
  obtain ⟨-, -, -, -, -, -, -, -, -, -, -, -, -, -, e0, e1⟩ := idx_facts t
  unfold iblk
  rw [View.read_apply]
  show V m c main_v3 _ = _
  rw [V_main_v3]
  refine shapeCast_apply _ _ _ (ix1 h) ?_
  rw [Shape.rowMajor_val_one, Shape.rowMajor_val_two]
  show h.val = (win0_7.index t (0 : Fin 2) * 1 + 1 * 0) * 256 + (win0_7.index t (1 : Fin 2) * 256 + 1 * h.val)
  rw [e0, e1]
  omega

end Cert.KernelIdeal.BlockReads

end
-- ==== Proof.Closed.lean ====
/-
  What the scratch blocks hold, in closed form, and the output block.

  At step k of batch tile i the carried tail is the last 256 positions of block k of the old flattened buffer; each
  accumulator, at row p and hidden column h, is the partial sum of the first k + 1 step contributions of row
  256 i + p — by induction on the step, each step adding its own contribution: the first 1792 positions of its block
  against the weight rows 256 onward of its weight block, and the carried piece (the new row at step 0, the tail of the
  step before otherwise) against the first 256 weight rows. At step 15 the sixteen contributions are the whole
  contraction of the advanced buffer against the weight column, so the stored block is the gated layer's result.
-/
import proofs.«118517_j40699110097066_2_alg».proof.Proof.BodySteps
import proofs.«118517_j40699110097066_2_alg».proof.Proof.Payload
import proofs.«118517_j40699110097066_2_alg».proof.Proof.Regroup
import proofs.«118517_j40699110097066_2_alg».proof.Proof.Spec
import proofs.«118517_j40699110097066_2_alg».proof.Proof.BlockReads

set_option maxRecDepth 16384

noncomputable section

open scoped BigOperators

namespace Cert.KernelIdeal.Closed

open Cert.KernelIdeal Cert.KernelIdeal.Gen Cert.KernelIdeal.Body Cert.KernelIdeal.Payload Cert.KernelIdeal.BlockReads
open Idealize.ShloMosaic Idealize.ShloMosaic.ValueIdx Idealize.ShloMosaic.TcCoe Idealize.SL.Sem

variable (m : (ℓ : Loc nD τ sig) → Buf (Elt Ideal) ℓ) (c : Dev nD)

/-! ## Names -/

/-- The launched arrays, at the specification's types. -/
abbrev aX : Cert.Spec.A2 512 256 := m ((c : Thread nD τ).loc main_arg0)
abbrev aMem : Cert.Spec.A3 512 128 256 := m ((c : Thread nD τ).loc main_arg1)
abbrev aW1 : Cert.Spec.A2 32768 256 := m ((c : Thread nD τ).loc main_arg2)
abbrev aWg : Cert.Spec.A2 32768 256 := m ((c : Thread nD τ).loc main_arg4)

/-- Row p of batch tile i, as a row of the whole array. -/
abbrev row (i : Fin 2) (p : Fin 256) : Fin 512 := ⟨256 * i.val + p.val, by have := i.isLt; have := p.isLt; omega⟩

/-- The contribution of step k', extended by zero past the sixteen steps. -/
def sTerm (x : Cert.Spec.A2 512 256) (mem : Cert.Spec.A3 512 128 256) (W : Cert.Spec.A2 32768 256) (b : Fin 512) (h : Fin 256)
    (k' : ℕ) : EReal :=
  if hk : k' < 16 then Cert.Regroup.stepTerm x mem W b h ⟨k', hk⟩ else 0

/-! ## The select on "this is step 0", at a later step -/

theorem select_notFirst {α : Type} (i : grid0.Coords) (h : ¬isFirst i) (a b : α) :
    Scalar.select (Scalar.cmpi .eq (BitVec.ofNat 32 (i 1).val) 0#32) a b = b := by
  have : Scalar.cmpi .eq (BitVec.ofNat 32 (i 1).val) 0#32 = 0#1 := by
    have hb : ∀ v : BitVec 1, ¬(Scalar.cmpi .ne (Scalar.extui v) 0#32) = 1#1 → v = 0#1 := by decide
    exact hb _ h
  rw [this]
  exact select_zero a b

/-! ## What a step adds, from what its blocks hold -/

/-- If a block's row holds positions 2048 k … of row b of the old buffer, the weight block rows 2048 k … of W, and the
    256-column piece the carried piece of step k, then the two products of the step add up to step k's contribution. -/
theorem added_eq (x : Cert.Spec.A2 512 256) (mem : Cert.Spec.A3 512 128 256) (W : Cert.Spec.A2 32768 256) (b : Fin 512)
    (k : Fin 16) (q : Fin 256) (memB : Vec Ideal S256x2048 .f32) (p : Fin 256)
    (hM : ∀ j : Fin 2048, memB (ix2 p j)
      = Cert.Spec.memFlat mem b ⟨2048 * k.val + j.val, by have := k.isLt; have := j.isLt; omega⟩)
    (wB : Vec Ideal S2048x256 .f32)
    (hW : ∀ r : Fin 2048, wB (ix2 r q) = W (ix2 ⟨2048 * k.val + r.val, by have := k.isLt; have := r.isLt; omega⟩ q))
    (pc : Vec Ideal S256x256 .f32) (hpc : ∀ j : Fin 256, pc (ix2 p j) = Cert.Regroup.prevPiece x mem b k j) :
    (∑ j : Fin 1792, memB (ix2 p ⟨j.val, by have := j.isLt; omega⟩) * wB (ix2 ⟨256 + j.val, by have := j.isLt; omega⟩ q))
      + ∑ j : Fin 256, pc (ix2 p j) * wB (ix2 ⟨j.val, by have := j.isLt; omega⟩ q)
    = Cert.Regroup.stepTerm x mem W b q k := by
  unfold Cert.Regroup.stepTerm
  refine congrArg₂ (· + ·) (Finset.sum_congr rfl fun j _ => ?_) (Finset.sum_congr rfl fun j _ => ?_)
  · rw [hM, hW]
    refine congrArg₂ (· * ·) rfl (congrArg (fun r => W (ix2 r q)) (Fin.ext ?_))
    show 2048 * k.val + (256 + j.val) = 2048 * k.val + 256 + j.val
    omega
  · rw [hpc, hW]

/-! ## The tail -/

/-- Every step leaves the last 256 columns of the buffer block it read. -/
theorem tail_eq (t : Fin cfg0.N) : (scratchAt m c t.val t.isLt).2.2 = tailNext (iblk m c 0 t) := by
  by_cases h : t.val % 16 = 0
  · rw [scratchAt_first m c t h]; rfl
  · rw [scratchAt_next m c t h]; rfl

/-- The tail after step k of tile i: positions 2048 k + 1792 … of the rows of the old buffer, flattened. -/
theorem tail_closed (t : Fin cfg0.N) (i : Fin 2) (k : Fin 16) (ht : t.val = 16 * i.val + k.val) (p j : Fin 256) :
    (scratchAt m c t.val t.isLt).2.2 (ix2 p j)
      = Cert.Spec.memFlat (aMem m c) (row i p) ⟨2048 * k.val + 1792 + j.val, by have := k.isLt; have := j.isLt; omega⟩ := by
  rw [tail_eq]
  refine (tailNext_apply _ p j).trans
    ((blk0_apply m c t i k ht p ⟨1792 + j.val, by have := j.isLt; omega⟩).trans ?_)
  exact congrArg (Cert.Spec.memFlat _ _)
    (Fin.ext (by show 2048 * k.val + (1792 + j.val) = 2048 * k.val + 1792 + j.val; omega))

/-! ## The carried piece -/

/-- At step 0 the piece is the new row's block. -/
theorem piece_first (t : Fin cfg0.N) (i : Fin 2) (k : Fin 16) (ht : t.val = 16 * i.val + k.val) (hk : k.val = 0)
    (tailB : Vec Ideal S256x256 .f32) (p j : Fin 256) :
    Payload.piece (grid0.coords t) (iblk m c 1 t) tailB (ix2 p j) = Cert.Regroup.prevPiece (aX m c) (aMem m c) (row i p) k j := by
  unfold Cert.KernelIdeal.Payload.piece
  rw [select_first (grid0.coords t) ((isFirst_iff t).mpr (by omega))]
  unfold Cert.Regroup.prevPiece
  rw [if_pos hk]
  exact blk1_apply m c t i k ht p j

/-- At a later step the piece is the tail the point before left: the last 256 positions of the block before. -/
theorem piece_next (t : Fin cfg0.N) (i : Fin 2) (k : Fin 16) (ht : t.val = 16 * i.val + k.val) (hk : 0 < k.val)
    (xB : Vec Ideal S256x256 .f32) (p j : Fin 256) :
    Payload.piece (grid0.coords t) xB (prevScratch m c t).2.2 (ix2 p j)
      = Cert.Regroup.prevPiece (aX m c) (aMem m c) (row i p) k j := by
  unfold Cert.KernelIdeal.Payload.piece
  rw [select_notFirst (grid0.coords t) (fun h => by have := (isFirst_iff t).mp h; omega)]
  unfold Cert.Regroup.prevPiece
  rw [if_neg (by omega)]
  unfold prevScratch
  exact tail_closed m c ⟨t.val - 1, Nat.lt_of_le_of_lt (Nat.sub_le _ _) t.isLt⟩ i ⟨k.val - 1, by have := k.isLt; omega⟩
    (by show t.val - 1 = 16 * i.val + (k.val - 1); omega) p j

/-! ## The accumulators -/

/-- The tanh branch's accumulator after step n of tile i is the partial sum of the first n + 1 contributions. -/
theorem acc1_closed (i : Fin 2) (p q : Fin 256) : ∀ (n : ℕ) (hn : n < 16) (t : Fin cfg0.N) (ht : t.val = 16 * i.val + n),
    (scratchAt m c t.val t.isLt).1 (ix2 p q)
      = ∑ k' ∈ Finset.range (n + 1), sTerm (aX m c) (aMem m c) (aW1 m c) (row i p) q k' := by
  intro n
  induction n with
  | zero =>
    intro hn t ht
    have h0 : t.val % 16 = 0 := by omega
    rw [scratchAt_first m c t h0, Finset.sum_range_one]
    refine (acc1Next_apply (grid0.coords t) (iblk m c 0 t) (iblk m c 1 t) (iblk m c 1 t) (iblk m c 2 t) zeroAcc1 p q).trans ?_
    rw [zeroAcc1_apply, zero_add]
    unfold sTerm
    rw [dif_pos hn]
    exact added_eq (aX m c) (aMem m c) (aW1 m c) (row i p) ⟨0, hn⟩ q (iblk m c 0 t) p
      (fun j => blk0_apply m c t i ⟨0, hn⟩ ht p j) (iblk m c 2 t) (fun r => blk2_apply m c t i ⟨0, hn⟩ ht r q)
      (Payload.piece (grid0.coords t) (iblk m c 1 t) (iblk m c 1 t)) (fun j => piece_first m c t i ⟨0, hn⟩ ht rfl _ p j)
  | succ n ih =>
    intro hn t ht
    have h0 : ¬t.val % 16 = 0 := by omega
    rw [scratchAt_next m c t h0, Finset.sum_range_succ]
    refine (acc1Next_apply (grid0.coords t) (iblk m c 0 t) (iblk m c 1 t) (prevScratch m c t).2.2 (iblk m c 2 t)
      (prevScratch m c t).1 p q).trans ?_
    refine congrArg₂ (· + ·) ?_ ?_
    · unfold prevScratch
      exact ih (by omega) ⟨t.val - 1, Nat.lt_of_le_of_lt (Nat.sub_le _ _) t.isLt⟩ (by show t.val - 1 = 16 * i.val + n; omega)
    · unfold sTerm
      rw [dif_pos hn]
      exact added_eq (aX m c) (aMem m c) (aW1 m c) (row i p) ⟨n + 1, hn⟩ q (iblk m c 0 t) p
        (fun j => blk0_apply m c t i ⟨n + 1, hn⟩ ht p j) (iblk m c 2 t) (fun r => blk2_apply m c t i ⟨n + 1, hn⟩ ht r q)
        (Payload.piece (grid0.coords t) (iblk m c 1 t) (prevScratch m c t).2.2)
        (fun j => piece_next m c t i ⟨n + 1, hn⟩ ht (Nat.succ_pos n) _ p j)

/-- The gate branch's accumulator likewise, on the gate's weight array. -/
theorem accG_closed (i : Fin 2) (p q : Fin 256) : ∀ (n : ℕ) (hn : n < 16) (t : Fin cfg0.N) (ht : t.val = 16 * i.val + n),
    (scratchAt m c t.val t.isLt).2.1 (ix2 p q)
      = ∑ k' ∈ Finset.range (n + 1), sTerm (aX m c) (aMem m c) (aWg m c) (row i p) q k' := by
  intro n
  induction n with
  | zero =>
    intro hn t ht
    have h0 : t.val % 16 = 0 := by omega
    rw [scratchAt_first m c t h0, Finset.sum_range_one]
    refine (accGNext_apply (grid0.coords t) (iblk m c 0 t) (iblk m c 1 t) (iblk m c 1 t) (iblk m c 3 t) zeroAccG p q).trans ?_
    rw [zeroAccG_apply, zero_add]
    unfold sTerm
    rw [dif_pos hn]
    exact added_eq (aX m c) (aMem m c) (aWg m c) (row i p) ⟨0, hn⟩ q (iblk m c 0 t) p
      (fun j => blk0_apply m c t i ⟨0, hn⟩ ht p j) (iblk m c 3 t) (fun r => blk3_apply m c t i ⟨0, hn⟩ ht r q)
      (Payload.piece (grid0.coords t) (iblk m c 1 t) (iblk m c 1 t)) (fun j => piece_first m c t i ⟨0, hn⟩ ht rfl _ p j)
  | succ n ih =>
    intro hn t ht
    have h0 : ¬t.val % 16 = 0 := by omega
    rw [scratchAt_next m c t h0, Finset.sum_range_succ]
    refine (accGNext_apply (grid0.coords t) (iblk m c 0 t) (iblk m c 1 t) (prevScratch m c t).2.2 (iblk m c 3 t)
      (prevScratch m c t).2.1 p q).trans ?_
    refine congrArg₂ (· + ·) ?_ ?_
    · unfold prevScratch
      exact ih (by omega) ⟨t.val - 1, Nat.lt_of_le_of_lt (Nat.sub_le _ _) t.isLt⟩ (by show t.val - 1 = 16 * i.val + n; omega)
    · unfold sTerm
      rw [dif_pos hn]
      exact added_eq (aX m c) (aMem m c) (aWg m c) (row i p) ⟨n + 1, hn⟩ q (iblk m c 0 t) p
        (fun j => blk0_apply m c t i ⟨n + 1, hn⟩ ht p j) (iblk m c 3 t) (fun r => blk3_apply m c t i ⟨n + 1, hn⟩ ht r q)
        (Payload.piece (grid0.coords t) (iblk m c 1 t) (prevScratch m c t).2.2)
        (fun j => piece_next m c t i ⟨n + 1, hn⟩ ht (Nat.succ_pos n) _ p j)

/-- After the last step an accumulator holds all sixteen contributions. -/
theorem sum_sTerm (x : Cert.Spec.A2 512 256) (mem : Cert.Spec.A3 512 128 256) (W : Cert.Spec.A2 32768 256) (b : Fin 512)
    (h : Fin 256) :
    ∑ k' ∈ Finset.range (15 + 1), sTerm x mem W b h k' = ∑ k : Fin 16, Cert.Regroup.stepTerm x mem W b h k := by
  rw [show (15 + 1 : ℕ) = 16 from rfl, Cert.Regroup.sum_fin16]
  refine Finset.sum_congr rfl fun k _ => ?_
  unfold sTerm
  rw [dif_pos k.isLt]

/-! ## The output block -/

theorem outAt_closed (t : Fin cfg0.N) (i : Fin 2) (ht : t.val = 16 * i.val + 15) (p q : Fin 256) :
    Cert.KernelIdeal.Body.outAt (F := Ideal) m c t (ix2 p q)
      = Cert.Spec.outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          ⟨256 * i.val + p.val, by have := i.isLt; have := p.isLt; omega⟩ q := by
  unfold Cert.KernelIdeal.Body.outAt
  refine (outOf_apply _ _ _ _ _ _ p q).trans ?_
  unfold Cert.Spec.outAt
  refine congrArg₂ (· + ·) (Finset.sum_congr rfl fun h _ => ?_) (blk7_apply m c t q)
  refine congrArg₂ (· * ·) ?_ (blk6_apply m c t h q)
  unfold Cert.Spec.hidden
  rw [Cert.Regroup.pre_eq_steps, Cert.Regroup.pre_eq_steps]
  refine congrArg₂ (fun u v => Ideal.tanh u * Ideal.logistic v) ?_ ?_
  · refine congrArg₂ (· + ·) ?_ (blk4_apply m c t h)
    rw [acc1_closed m c i p h 15 (by norm_num) t ht]
    exact sum_sTerm _ _ _ _ _
  · refine congrArg₂ (· + ·) ?_ (blk5_apply m c t h)
    rw [accG_closed m c i p h 15 (by norm_num) t ht]
    exact sum_sTerm _ _ _ _ _

end Cert.KernelIdeal.Closed

end
-- ==== Proof.Final.lean ====
/-
  The kernel's result array, read off its run.

  The output window holds the [512, 256] result in two blocks of 256 rows, block `i` at rows `256 i .. 256 i + 255`;
  block `i` is written back once, after the last step of tile `i`, at grid point `16 i + 15`. If the block stored there
  is rows `256 i ..` of the specification's result (the hypothesis `OutClosed`), every write-back writes its block of
  ONE array, the specification's; the two blocks cover every position `(b, v)` (it lies in block `b / 256`), so the
  array ends holding the specification's result. The argument arrays are never written.
-/
import proofs.«118517_j40699110097066_2_alg».proof.Proof.BodyFrame
import proofs.«118517_j40699110097066_2_alg».proof.Proof.Spec
import Idealize.ShloMosaic.Lib.Pipeline.Value
import Idealize.ShloMosaic.Lib.ValueIdx

set_option maxRecDepth 16384

noncomputable section

namespace Cert.KernelIdeal.Final

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification's result at core c's argument arrays. -/
def Gk (c : Dev nD) : Cert.Spec.A2 512 256 :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The block stored at a tile's last step is the specification's rows of that tile. -/
def OutClosed (c : Dev nD) : Prop :=
  ∀ (t : Fin cfg0.N) (i : Fin 2), t.val = 16 * i.val + 15 → ∀ p q : Fin 256,
    Cert.KernelIdeal.Body.outAt (F := Ideal) m c t (ix2 p q)
      = Cert.Spec.outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          ⟨256 * i.val + p.val, by have := i.isLt; have := p.isLt; omega⟩ q

/-- The output window's block index at point `t`: tile `t / 16` on the row axis, 0 on the column axis (decided over
    the 32 grid points). -/
theorem idx8 : ∀ t : Fin cfg0.N, win0_8.index t (0 : Fin 2) = t.val / 16 ∧ win0_8.index t (1 : Fin 2) = 0 :=
  (by decide +kernel : ∀ t : Fin grid0.N, win0_8.index t (0 : Fin 2) = t.val / 16 ∧ win0_8.index t (1 : Fin 2) = 0)

/-- What a write-back writes is its block of the specification's array: the write-back happens at `t = 16 i + 15`
    with `i = t / 16`; position `(p, q)` of the block is position `(256 i + p, q)` of the array (block index times block
    size plus the position inside), where the specification's array is `outAt` at row `256 i + p`, column `q`. -/
theorem flushed_eq (c : Dev nD) (hclosed : OutClosed m c) (t : Fin cfg0.N) (hf : (cfg0.win 8).flush t = true) :
    (Cert.KernelIdeal.Body.dats (F := Ideal) m 0 c).flushed 8 t = ((cfg0.win 8).blk t).view.read (Elt Ideal) (Gk m c) := by
  have h15 : t.val % 16 = 15 := (flush0_8 t).mp hf
  have hN : t.val < 32 := lt_of_lt_of_eq t.isLt (show cfg0.N = 32 from N_0)
  show (cfg0.win 8).cut (grid0.coords t) ((Cert.KernelIdeal.Body.dats (F := Ideal) m 0 c).after 8 t) = _
  rw [Cert.KernelIdeal.Body.after_8]
  funext y
  rw [View.read_apply]
  have hi := idx8 t
  obtain ⟨p, hp⟩ : ∃ p : Fin 256, p.val = (y 0).val := ⟨⟨(y 0).val, (y 0).isLt⟩, rfl⟩
  obtain ⟨q, hq⟩ : ∃ q : Fin 256, q.val = (y 1).val := ⟨⟨(y 1).val, (y 1).isLt⟩, rfl⟩
  have e1 : win0_8.xinj (grid0.coords t) y = ix2 p q := funext fun a => by
    match a with
    | ⟨0, _⟩ => exact Fin.ext hp.symm
    | ⟨1, _⟩ => exact Fin.ext hq.symm
  have e2 : ((cfg0.win 8).blk t).view.emb y = ix2 (⟨256 * (t.val / 16) + p.val, by omega⟩ : Fin 512) q := funext fun a => by
    apply Fin.ext
    match a with
    | ⟨0, _⟩ =>
      show win0_8.index t 0 * 256 + 1 * (y 0).val = 256 * (t.val / 16) + p.val
      rw [hi.1, hp]; omega
    | ⟨1, _⟩ =>
      show win0_8.index t 1 * 256 + 1 * (y 1).val = q.val
      rw [hi.2, hq]; omega
  show Cert.KernelIdeal.Body.outAt (F := Ideal) m c t (win0_8.xinj (grid0.coords t) y) = Gk m c (((cfg0.win 8).blk t).view.emb y)
  rw [e1, e2]
  exact (hclosed t ⟨t.val / 16, by omega⟩ (by show t.val = 16 * (t.val / 16) + 15; omega) p q).trans (Cert.Spec.G_ix2 ..).symm

/-- The result array after the whole grid is the specification's: each write-back writes its block of the
    specification's array, and position `(b, v)` lies in the block written back at point `16 * (b / 256) + 15`. -/
theorem final_out (c : Dev nD) (hclosed : OutClosed m c) :
    (Cert.KernelIdeal.Body.dats (F := Ideal) m 0 c).arrAt 8 cfg0.N = Gk m c :=
  (Cert.KernelIdeal.Body.dats (F := Ideal) m 0 c).arrAt_eq_of_cover 8 (Gk m c) (flushed_eq m c hclosed) fun i => by
    have h0 : (i 0 : Nat) < 512 := (i 0).isLt
    have h1 : (i 1 : Nat) < 256 := (i 1).isLt
    have hN : cfg0.N = 32 := N_0
    obtain ⟨t, ht⟩ : ∃ t : Fin cfg0.N, t.val = 16 * ((i 0 : Nat) / 256) + 15 :=
      ⟨⟨16 * ((i 0 : Nat) / 256) + 15, by rw [hN]; omega⟩, rfl⟩
    refine ⟨t, (flush0_8 t).mpr (by rw [ht]; omega), ?_⟩
    show i ∈ ((View.whole main_v4).slice (win0_8.rect t)).set
    rw [View.set_slice_whole, Rect.mem_set_unit]
    intro a
    have hi := idx8 t
    match a with
    | ⟨0, _⟩ =>
      show win0_8.index t 0 * win0_8.size 0 ≤ (i 0 : Nat) ∧ (i 0 : Nat) < win0_8.index t 0 * win0_8.size 0 + win0_8.xsize (grid0.coords t) 0
      rw [hi.1, show win0_8.size 0 = 256 from rfl, show win0_8.xsize (grid0.coords t) 0 = 256 from rfl, ht]
      omega
    | ⟨1, _⟩ =>
      show win0_8.index t 1 * win0_8.size 1 ≤ (i 1 : Nat) ∧ (i 1 : Nat) < win0_8.index t 1 * win0_8.size 1 + win0_8.xsize (grid0.coords t) 1
      rw [hi.2, show win0_8.size 1 = 256 from rfl, show win0_8.xsize (grid0.coords t) 1 = 256 from rfl]
      omega

/-- The kernel's run, read: the result array ends at the specification's, the argument arrays unchanged. -/
theorem kernel_run (hclosed : ∀ c, OutClosed m c) :
    θ_run (Cert.KernelIdeal.defs (F := Ideal)) (onTc (τ := Cert.KernelIdeal.τ) (Cert.KernelIdeal.main (F := Ideal))) ⟨m, fun _ => 0, ρ⟩ (fun r => ∀ c : Dev nD,
      r.2.mem ((c.tc : Thread nD τ).loc main_v4) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final_out m c (hclosed c)),
      ((h c).1 1).trans (((Cert.KernelIdeal.Body.dats (F := Ideal) m 0 c).arrAt_in 1 rfl _).trans ((Cert.KernelIdeal.Body.A_eq m c 1).trans (V_main_arg0 m c))),
      ((h c).2 main_arg1 (Pipeline.mem_restRefs_of main_arg1 (by decide) (by decide))).trans (V_main_arg1 m c),
      ((h c).1 2).trans (((Cert.KernelIdeal.Body.dats (F := Ideal) m 0 c).arrAt_in 2 rfl _).trans ((Cert.KernelIdeal.Body.A_eq m c 2).trans (V_main_arg2 m c))),
      ((h c).2 main_arg3 (Pipeline.mem_restRefs_of main_arg3 (by decide) (by decide))).trans (V_main_arg3 m c),
      ((h c).1 3).trans (((Cert.KernelIdeal.Body.dats (F := Ideal) m 0 c).arrAt_in 3 rfl _).trans ((Cert.KernelIdeal.Body.A_eq m c 3).trans (V_main_arg4 m c))),
      ((h c).2 main_arg5 (Pipeline.mem_restRefs_of main_arg5 (by decide) (by decide))).trans (V_main_arg5 m c),
      ((h c).1 6).trans (((Cert.KernelIdeal.Body.dats (F := Ideal) m 0 c).arrAt_in 6 rfl _).trans ((Cert.KernelIdeal.Body.A_eq m c 6).trans (V_main_arg6 m c))),
      ((h c).2 main_arg7 (Pipeline.mem_restRefs_of main_arg7 (by decide) (by decide))).trans (V_main_arg7 m c)⟩)
    (Cert.KernelIdeal.Body.run_main (F := Ideal) m ρ)

end Cert.KernelIdeal.Final

end
-- ==== Proof.lean ====
/-
  The certificate of the gated ring-buffer layer: the kernel's program and its reference compute one function.

  Claimed (Defs.lean): each of the three programs runs to its end from any memory with finite float inputs, faults
  nowhere and leaves its argument arrays unchanged; the kernel's idealized text is the kernel's own text (no rewrite was
  applied, so nothing is owed there); and at the ideal instance — floats extended reals, every operation exact — the
  idealized kernel and the idealized reference, run from memories agreeing on the arguments, end with equal results.

  The mathematics. A buffer of 128 slots of 256 lanes per row is advanced by one slot and the new row `x` written into
  slot 0; flattened to 32768 positions per row it goes through a gated dense layer,
  `out = (tanh (flat · W1 + b1) * logistic (flat · Wg + bg)) · W2 + b2` (`Spec.G`). The reference does this literally.
  The kernel never forms `flat`: over 16 steps per batch tile it reads the unshifted buffer in blocks of 2048 columns,
  multiplies a block's first 1792 columns against rows 256.. of the weight block and a separate 256-column piece — `x` at
  step 0, afterwards the last 256 columns of the block before, kept in a scratch block — against rows ..256, and adds up;
  the last step applies the nonlinearity and the second layer. The two contractions are one sum grouped differently
  (`Regroup.pre_eq_steps`), and addition on the extended reals is commutative and associative, so no finiteness is used:
  the precondition is never opened.

  The modules. `Spec`: the function. `RefValue`: the reference's run (generated modules Run and Read) ends at it.
  `BodyDefs`, `BodyRunFirst` / `Mid` / `Last`, `BodySteps`, `BodyFrame`: the kernel's frame, with what its scratch blocks
  hold after every grid point stated — once at any float instance, instantiated at both; the `K…` modules are the same
  text for the word-level program. `Payload`, `BlockReads`: the body's arithmetic and the windows' blocks read at an
  index. `Closed`: the recursion over the points in closed form. `Final`: the result array read off the run.
-/
import proofs.«118517_j40699110097066_2_alg».proof.Defs
import proofs.«118517_j40699110097066_2_alg».proof.Proof.Gen.Kernel
import proofs.«118517_j40699110097066_2_alg».proof.Proof.Gen.KernelIdeal
import proofs.«118517_j40699110097066_2_alg».proof.Proof.Gen.ReferenceIdeal
import proofs.«118517_j40699110097066_2_alg».proof.Proof.Gen.ReferenceIdeal.Run
import proofs.«118517_j40699110097066_2_alg».proof.Proof.Gen.ReferenceIdeal.Read
import proofs.«118517_j40699110097066_2_alg».proof.Proof.Gen.Pre_finite_inputs
import proofs.«118517_j40699110097066_2_alg».proof.Proof.KBodyFrame
import proofs.«118517_j40699110097066_2_alg».proof.Proof.BodyFrame
import proofs.«118517_j40699110097066_2_alg».proof.Proof.RefValue
import proofs.«118517_j40699110097066_2_alg».proof.Proof.Closed
import proofs.«118517_j40699110097066_2_alg».proof.Proof.Final
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Body.frame m ρ

/-- The idealized kernel runs and keeps its arguments. -/
theorem frame_kernelIdeal : Cert.frame_KernelIdeal := fun m ρ _ => Cert.KernelIdeal.Body.frame m ρ

/-- The idealized reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end at the specification of the (agreeing) arguments. -/
theorem algebraic : Cert.algebraic_KernelIdeal_ReferenceIdeal := by
  intro m ρ m' ρ' _ hagree
  refine ⟨fun c => Cert.KernelIdeal.Final.Gk m c,
    Cert.KernelIdeal.Final.kernel_run m ρ (fun c => Cert.KernelIdeal.Closed.outAt_closed m c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.ref_eq_G,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
